-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S10000x128 : Shape := ⟨2, ![10000, 128]⟩
abbrev S10000x1 : Shape := ⟨2, ![10000, 1]⟩
abbrev S1x128 : Shape := ⟨2, ![1, 128]⟩
abbrev S10000 : Shape := ⟨1, ![10000]⟩

abbrev nBuf : Space → Nat
  | .hbm => 59
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S128x128, .f32⟩
  | .hbm, ⟨57, _⟩ => ⟨S128x128, .f32⟩
  | .hbm, ⟨58, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S128, .f32⟩
  | .local _ .vmem, ⟨22, _⟩ => ⟨S10000x128, .f32⟩
  | .local _ .vmem, ⟨23, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  reduces_S10000x128_S10000 : S10000x128.Reduces [1] S10000
  shapeCasts_S10000_S10000x1 : S10000.ShapeCasts S10000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x128.size a ≤ S50000x128.size a
  hwx1_8 : ∀ i : grid1.Coords, EltTy.bits .f32 = 32 ∨ (Rect.block (s := S50000x128) S10000x128.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S10000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S1x800000, .i32⟩
  | .hbm, ⟨51, _⟩ => ⟨S800000, .i32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S128x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x1, .f32⟩
  | .hbm, ⟨109, _⟩ => ⟨S50000x1, .f32⟩
  | .hbm, ⟨110, _⟩ => ⟨S50000x1, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
import proofs.«139870_j89103391523116_2_alg».proof.Proof.Gen.KernelIdeal.Frame

/-! # The run of the kernel program with its result named

The generated frame certificate runs the program through its four segments (host operations, region 0, host
operations, region 1) and ends at the thread state "every unscoped buffer holds the last boundary's contents
`Gen.W4`". It reads only the ten argument buffers back. Here the same run is read at one more buffer, the result
`main_v38`: the final memory there is `Gen.W4 m ρ c` at that buffer, and each argument ends as launched. -/

set_option maxRecDepth 16384

noncomputable section

namespace Cert.KernelIdeal.Glue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program on the TensorCores terminates,
    nothing faulting, and in every final state the result buffer holds the last boundary's contents at that buffer
    and every argument buffer holds what it was launched with. The run is the generated frame's; the final thread
    state is read at the result buffer as well as at the arguments. -/
theorem run_named : θ_run defs (onTc (τ := τ) (main (F := F))) ⟨m, fun _ => 0, ρ⟩ (fun r => ∀ c : Dev nD,
      r.2.mem ((c.tc : Thread nD τ).loc main_v38) = Gen.W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Glue

end
-- ==== Proof.KHost.lean ====
import proofs.«139870_j89103391523116_2_alg».proof.Proof.Gen.KernelIdeal.Frame
import Idealize.ShloMosaic.PureOps.Ideal

/-! # The host-side pieces of the program as functions of its arguments

Between its two regions the program runs host operations: it splits the edge list into its source row and its
destination row, wraps negative source indices, gathers the feature rows at the sources and adds them up at the
destinations (a segment sum), counts the edges arriving at each node and inverts the count (at least one), and
transposes the weight matrices. Each piece is written here once, at the ideal instance, with exactly the operations
and shape records the program's text uses, so that what a buffer holds after the host operations is one of these
terms by unfolding. `kernelTerm` composes them with the two regions' whole-array functions `L1`, `L2`. -/

noncomputable section

namespace Cert.KernelIdeal.Glue

open Idealize.ShloMosaic Idealize.SL.Sem
open Cert.KernelIdeal.Facts₀

/-- Row `0` of the edge list (the sources), as a vector: the slice `[0:1, 0:800000]` reshaped to `[800000]`. -/
def row0 (e : IVec S2x800000 32) : IVec S800000 32 :=
  shapeCast S800000 (extractStridedSlice S1x800000 ![0, 0] e slices_S2x800000_S1x800000_0_0) shapeCasts_S1x800000_S800000

/-- Row `1` of the edge list (the destinations), as a vector: the slice `[1:2, 0:800000]` reshaped to `[800000]`. -/
def row1 (e : IVec S2x800000 32) : IVec S800000 32 :=
  shapeCast S800000 (extractStridedSlice S1x800000 ![1, 0] e slices_S2x800000_S1x800000_1_0) shapeCasts_S1x800000_S800000

/-- A vector of destinations as the `[800000, 1]` column of scatter indices. -/
def dstOf (r : IVec S800000 32) : IVec S800000x1 32 :=
  broadcastInDim S800000x1 ![0] bcast_S800000_S800000x1_0 r

/-- A vector of sources as the `[800000, 1]` column of gather indices: an entry below zero is moved up by the
    number of nodes, `50000`, every other entry kept. -/
def srcOf (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The destinations' column of the edge list `e`. -/
def dstCol (e : IVec S2x800000 32) : IVec S800000x1 32 := dstOf (row1 e)

/-- The sources' column of the edge list `e`, negative entries wrapped. -/
def srcCol (e : IVec S2x800000 32) : IVec S800000x1 32 := srcOf (row0 e)

/-- The segment sum over index columns: the rows of `h` gathered at the sources `s`, added up at the destinations
    `d` into a zero array. -/
def segsumOf (h : FVec Ideal S50000x128 .f32) (s d : IVec S800000x1 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) d
    (Host.gather gather_S50000x128_S800000x1_S800000x128_1_0_n_n_0_1_1128 h s)

/-- The segment sum of the rows of `h` along the edge list `e`: row `v` of the result is the sum of the rows
    `h[src]` over the edges `src → v`. -/
def segsum (h : FVec Ideal S50000x128 .f32) (e : IVec S2x800000 32) : FVec Ideal S50000x128 .f32 :=
  segsumOf h (srcCol e) (dstCol e)

/-- The inverse in-degree over a column of destinations, as a `[50000, 1]` column: one over the larger of the
    number of edges arriving at the node and one. -/
def invcntOf (d : IVec S800000x1 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (F := Ideal)
        (Host.scatterAdd (F := Ideal) scatter_S50000_S800000x1_S800000_n_0_0_1
          (broadcastInDim S50000 ![] bcast_S_S50000 (constant (F := Ideal) S_ .f32 0x00000000#32)) d
          (broadcastInDim S800000 ![] bcast_S_S800000 (constant (F := Ideal) S_ .f32 0x3F800000#32)))
        (broadcastInDim S50000 ![] bcast_S_S50000 (constant (F := Ideal) S_ .f32 0x3F800000#32))))

/-- The inverse in-degree column of the edge list `e`. -/
def invcnt (e : IVec S2x800000 32) : FVec Ideal S50000x1 .f32 := invcntOf (dstCol e)

/-- A weight matrix transposed. -/
def tr (w : FVec Ideal S128x128 .f32) : FVec Ideal S128x128 .f32 :=
  transpose S128x128 [1, 0] w transposes_S128x128_S128x128_1_0

theorem dstCol_eq (e : IVec S2x800000 32) : dstCol e = dstOf (row1 e) := rfl
theorem srcCol_eq (e : IVec S2x800000 32) : srcCol e = srcOf (row0 e) := rfl
theorem segsum_eq (h : FVec Ideal S50000x128 .f32) (e : IVec S2x800000 32) :
    segsum h e = segsumOf h (srcCol e) (dstCol e) := rfl
theorem invcnt_eq (e : IVec S2x800000 32) : invcnt e = invcntOf (dstCol e) := rfl

/-- The whole program as a term of its ten arguments: the first region's whole-array function `L1` at the segment
    sum of the features, the features, the inverse in-degree and the first layer's parameters; then the second
    region's `L2` at the segment sum of that result, that result, the same inverse in-degree and the second layer's
    parameters. -/
def kernelTerm
    (L1 : FVec Ideal S50000x128 .f32 → FVec Ideal S50000x128 .f32 → FVec Ideal S50000x1 .f32 → FVec Ideal S128x128 .f32
      → FVec Ideal S128 .f32 → FVec Ideal S128x128 .f32 → FVec Ideal S50000x128 .f32)
    (L2 : FVec Ideal S50000x128 .f32 → FVec Ideal S50000x128 .f32 → FVec Ideal S50000x1 .f32 → FVec Ideal S128x128 .f32
      → FVec Ideal S128 .f32 → FVec Ideal S128x128 .f32 → FVec Ideal S128 .f32 → FVec Ideal S128 .f32 → FVec Ideal S50000x128 .f32)
    (x : FVec Ideal S50000x128 .f32) (e : IVec S2x800000 32)
    (w1l : FVec Ideal S128x128 .f32) (b1l : FVec Ideal S128 .f32) (w1r : FVec Ideal S128x128 .f32)
    (w2l : FVec Ideal S128x128 .f32) (b2l : FVec Ideal S128 .f32) (w2r : FVec Ideal S128x128 .f32)
    (lnw lnb : FVec Ideal S128 .f32) : FVec Ideal S50000x128 .f32 :=
  let h1 := L1 (segsum x e) x (invcnt e) (tr w1l) b1l (tr w1r)
  L2 (segsum h1 e) h1 (invcnt e) (tr w2l) b2l (tr w2r) lnw lnb

end Cert.KernelIdeal.Glue

end
-- ==== Proof.KValue.lean ====
import proofs.«139870_j89103391523116_2_alg».proof.Proof.Gen.KernelIdeal.Frame
import proofs.«139870_j89103391523116_2_alg».proof.Proof.KHost
import Idealize.ShloMosaic.Lib.StableHlo.Run
import Idealize.ShloMosaic.Lib.Pipeline.FrameSuffix
import Idealize.ShloMosaic.PureOps.Ideal

/-! # The result buffer's contents as a closed term of the arguments

The generated frame folds the buffer contents through the program's four segments: the launch memory, the first
stretch of host operations, the first region's write-backs, the second stretch, the second region's write-backs
(`Gen.W0` … `Gen.W4`). Given each region's output array as a whole-array function of its input arrays, the fold at
the result buffer is read back to the launch memory here: the host stretches by their operations' result equations
over an arbitrary entry valuation, the regions by the hypotheses, and the boundary contents kept as variables
throughout. -/

set_option maxRecDepth 16384

noncomputable section

namespace Cert.KernelIdeal.Glue

open Idealize.ShloMosaic Idealize.ShloMosaic.TcCoe
open Idealize.SL.Sem

/-! ## What the second stretch of host operations leaves, over any entry contents `X`

Each buffer the second region reads, after the host operations between the regions, as a term of the contents `X`
the stretch was entered with: the operations' results folded along the list, a buffer no operation writes left as
it was. -/

section Host1
variable (X : Valuation τ sig (Elt Ideal))

theorem h1_v35 : StableHlo.after (Gen.hostOps1 (F := Ideal)) X (Proc.devRef .tc main_v35) = segsumOf (X (Proc.devRef .tc main_v25)) (srcOf (X (Proc.devRef .tc main_v1))) (dstOf (X (Proc.devRef .tc main_v3))) := by
  dsimp only [Gen.hostOps1]
  after_results_simp
  rfl
theorem h1_v25 : StableHlo.after (Gen.hostOps1 (F := Ideal)) X (Proc.devRef .tc main_v25) = X (Proc.devRef .tc main_v25) := by
  dsimp only [Gen.hostOps1]
  after_results_simp
theorem h1_v12 : StableHlo.after (Gen.hostOps1 (F := Ideal)) X (Proc.devRef .tc main_v12) = X (Proc.devRef .tc main_v12) := by
  dsimp only [Gen.hostOps1]
  after_results_simp
theorem h1_v36 : StableHlo.after (Gen.hostOps1 (F := Ideal)) X (Proc.devRef .tc main_v36) = tr (X (Proc.devRef .tc main_arg5)) := by
  dsimp only [Gen.hostOps1]
  after_results_simp
  rfl
theorem h1_arg6 : StableHlo.after (Gen.hostOps1 (F := Ideal)) X (Proc.devRef .tc main_arg6) = X (Proc.devRef .tc main_arg6) := by
  dsimp only [Gen.hostOps1]
  after_results_simp
theorem h1_v37 : StableHlo.after (Gen.hostOps1 (F := Ideal)) X (Proc.devRef .tc main_v37) = tr (X (Proc.devRef .tc main_arg7)) := by
  dsimp only [Gen.hostOps1]
  after_results_simp
  rfl
theorem h1_arg8 : StableHlo.after (Gen.hostOps1 (F := Ideal)) X (Proc.devRef .tc main_arg8) = X (Proc.devRef .tc main_arg8) := by
  dsimp only [Gen.hostOps1]
  after_results_simp
theorem h1_arg9 : StableHlo.after (Gen.hostOps1 (F := Ideal)) X (Proc.devRef .tc main_arg9) = X (Proc.devRef .tc main_arg9) := by
  dsimp only [Gen.hostOps1]
  after_results_simp

end Host1

/-! ## What the first stretch of host operations leaves, over any launch contents `X`

The same for the host operations before the first region: the buffers the first region reads, and the two index
rows and the arguments the later segments read. -/

section Host0
variable (X : Valuation τ sig (Elt Ideal))

theorem h0_v22 : StableHlo.after (Gen.hostOps0 (F := Ideal)) X (Proc.devRef .tc main_v22) = segsum (X (Proc.devRef .tc main_arg0)) (X (Proc.devRef .tc main_arg1)) := by
  dsimp only [Gen.hostOps0]
  after_results_simp
  rfl
theorem h0_arg0 : StableHlo.after (Gen.hostOps0 (F := Ideal)) X (Proc.devRef .tc main_arg0) = X (Proc.devRef .tc main_arg0) := by
  dsimp only [Gen.hostOps0]
  after_results_simp
theorem h0_v12 : StableHlo.after (Gen.hostOps0 (F := Ideal)) X (Proc.devRef .tc main_v12) = invcnt (X (Proc.devRef .tc main_arg1)) := by
  dsimp only [Gen.hostOps0]
  after_results_simp
  rfl
theorem h0_v23 : StableHlo.after (Gen.hostOps0 (F := Ideal)) X (Proc.devRef .tc main_v23) = tr (X (Proc.devRef .tc main_arg2)) := by
  dsimp only [Gen.hostOps0]
  after_results_simp
  rfl
theorem h0_arg3 : StableHlo.after (Gen.hostOps0 (F := Ideal)) X (Proc.devRef .tc main_arg3) = X (Proc.devRef .tc main_arg3) := by
  dsimp only [Gen.hostOps0]
  after_results_simp
theorem h0_v24 : StableHlo.after (Gen.hostOps0 (F := Ideal)) X (Proc.devRef .tc main_v24) = tr (X (Proc.devRef .tc main_arg4)) := by
  dsimp only [Gen.hostOps0]
  after_results_simp
  rfl
theorem h0_v1 : StableHlo.after (Gen.hostOps0 (F := Ideal)) X (Proc.devRef .tc main_v1) = row0 (X (Proc.devRef .tc main_arg1)) := by
  dsimp only [Gen.hostOps0]
  after_results_simp
  rfl
theorem h0_v3 : StableHlo.after (Gen.hostOps0 (F := Ideal)) X (Proc.devRef .tc main_v3) = row1 (X (Proc.devRef .tc main_arg1)) := by
  dsimp only [Gen.hostOps0]
  after_results_simp
  rfl
theorem h0_arg5 : StableHlo.after (Gen.hostOps0 (F := Ideal)) X (Proc.devRef .tc main_arg5) = X (Proc.devRef .tc main_arg5) := by
  dsimp only [Gen.hostOps0]
  after_results_simp
theorem h0_arg6 : StableHlo.after (Gen.hostOps0 (F := Ideal)) X (Proc.devRef .tc main_arg6) = X (Proc.devRef .tc main_arg6) := by
  dsimp only [Gen.hostOps0]
  after_results_simp
theorem h0_arg7 : StableHlo.after (Gen.hostOps0 (F := Ideal)) X (Proc.devRef .tc main_arg7) = X (Proc.devRef .tc main_arg7) := by
  dsimp only [Gen.hostOps0]
  after_results_simp
theorem h0_arg8 : StableHlo.after (Gen.hostOps0 (F := Ideal)) X (Proc.devRef .tc main_arg8) = X (Proc.devRef .tc main_arg8) := by
  dsimp only [Gen.hostOps0]
  after_results_simp
theorem h0_arg9 : StableHlo.after (Gen.hostOps0 (F := Ideal)) X (Proc.devRef .tc main_arg9) = X (Proc.devRef .tc main_arg9) := by
  dsimp only [Gen.hostOps0]
  after_results_simp

end Host0

/-! ## The two stretches composed

Over any launch contents `X0` and any contents `X2` at the second stretch's entry that hold the first region's
result `L1 …` at its output array and agree with the first stretch's exit on the other buffers read later: the
second region's function at the second stretch's exit is the program's closed term of the ten arguments. -/

section Compose
variable (L1 : FVec Ideal S50000x128 .f32 → FVec Ideal S50000x128 .f32 → FVec Ideal S50000x1 .f32 → FVec Ideal S128x128 .f32
      → FVec Ideal S128 .f32 → FVec Ideal S128x128 .f32 → FVec Ideal S50000x128 .f32)
variable (L2 : FVec Ideal S50000x128 .f32 → FVec Ideal S50000x128 .f32 → FVec Ideal S50000x1 .f32 → FVec Ideal S128x128 .f32
      → FVec Ideal S128 .f32 → FVec Ideal S128x128 .f32 → FVec Ideal S128 .f32 → FVec Ideal S128 .f32 → FVec Ideal S50000x128 .f32)

theorem term_eq (X0 X2 : Valuation τ sig (Elt Ideal))
    (hv25 : X2 (Proc.devRef .tc main_v25) = L1 (StableHlo.after (Gen.hostOps0 (F := Ideal)) X0 (Proc.devRef .tc main_v22)) (StableHlo.after (Gen.hostOps0 (F := Ideal)) X0 (Proc.devRef .tc main_arg0)) (StableHlo.after (Gen.hostOps0 (F := Ideal)) X0 (Proc.devRef .tc main_v12))
      (StableHlo.after (Gen.hostOps0 (F := Ideal)) X0 (Proc.devRef .tc main_v23)) (StableHlo.after (Gen.hostOps0 (F := Ideal)) X0 (Proc.devRef .tc main_arg3)) (StableHlo.after (Gen.hostOps0 (F := Ideal)) X0 (Proc.devRef .tc main_v24)))
    (h_main_v1 : X2 (Proc.devRef .tc main_v1) = (StableHlo.after (Gen.hostOps0 (F := Ideal)) X0 (Proc.devRef .tc main_v1)))
    (h_main_v3 : X2 (Proc.devRef .tc main_v3) = (StableHlo.after (Gen.hostOps0 (F := Ideal)) X0 (Proc.devRef .tc main_v3)))
    (h_main_v12 : X2 (Proc.devRef .tc main_v12) = (StableHlo.after (Gen.hostOps0 (F := Ideal)) X0 (Proc.devRef .tc main_v12)))
    (h_main_arg5 : X2 (Proc.devRef .tc main_arg5) = (StableHlo.after (Gen.hostOps0 (F := Ideal)) X0 (Proc.devRef .tc main_arg5)))
    (h_main_arg6 : X2 (Proc.devRef .tc main_arg6) = (StableHlo.after (Gen.hostOps0 (F := Ideal)) X0 (Proc.devRef .tc main_arg6)))
    (h_main_arg7 : X2 (Proc.devRef .tc main_arg7) = (StableHlo.after (Gen.hostOps0 (F := Ideal)) X0 (Proc.devRef .tc main_arg7)))
    (h_main_arg8 : X2 (Proc.devRef .tc main_arg8) = (StableHlo.after (Gen.hostOps0 (F := Ideal)) X0 (Proc.devRef .tc main_arg8)))
    (h_main_arg9 : X2 (Proc.devRef .tc main_arg9) = (StableHlo.after (Gen.hostOps0 (F := Ideal)) X0 (Proc.devRef .tc main_arg9))) :
    L2 (StableHlo.after (Gen.hostOps1 (F := Ideal)) X2 (Proc.devRef .tc main_v35)) (StableHlo.after (Gen.hostOps1 (F := Ideal)) X2 (Proc.devRef .tc main_v25)) (StableHlo.after (Gen.hostOps1 (F := Ideal)) X2 (Proc.devRef .tc main_v12))
      (StableHlo.after (Gen.hostOps1 (F := Ideal)) X2 (Proc.devRef .tc main_v36)) (StableHlo.after (Gen.hostOps1 (F := Ideal)) X2 (Proc.devRef .tc main_arg6)) (StableHlo.after (Gen.hostOps1 (F := Ideal)) X2 (Proc.devRef .tc main_v37))
      (StableHlo.after (Gen.hostOps1 (F := Ideal)) X2 (Proc.devRef .tc main_arg8)) (StableHlo.after (Gen.hostOps1 (F := Ideal)) X2 (Proc.devRef .tc main_arg9))
      = kernelTerm L1 L2 (X0 (Proc.devRef .tc main_arg0)) (X0 (Proc.devRef .tc main_arg1)) (X0 (Proc.devRef .tc main_arg2)) (X0 (Proc.devRef .tc main_arg3)) (X0 (Proc.devRef .tc main_arg4)) (X0 (Proc.devRef .tc main_arg5)) (X0 (Proc.devRef .tc main_arg6)) (X0 (Proc.devRef .tc main_arg7)) (X0 (Proc.devRef .tc main_arg8)) (X0 (Proc.devRef .tc main_arg9)) := by
  rw [h1_v35, h1_v25, h1_v12, h1_v36, h1_arg6, h1_v37, h1_arg8, h1_arg9]
  rw [hv25, h_main_v1, h_main_v3, h_main_v12, h_main_arg5, h_main_arg6, h_main_arg7, h_main_arg8, h_main_arg9]
  rw [h0_v22, h0_arg0, h0_v12, h0_v23, h0_arg3, h0_v24, h0_v1, h0_v3, h0_arg5, h0_arg6, h0_arg7, h0_arg8, h0_arg9]
  rfl

end Compose

/-! ## The result buffer at the last boundary -/

/-- Given what each region's pipeline leaves in its output array as a function of the region's input arrays at
    any entry contents (`h0`, `h1`), the last boundary's contents at the result buffer are the program's closed term
    of the ten launch arguments: the second region's output array read through its function, the second stretch of
    host operations read over the first region's exit contents, the first region's output array read through its
    function, and the first stretch read over the launch memory. -/
theorem W4_v38
    (L1 : FVec Ideal S50000x128 .f32 → FVec Ideal S50000x128 .f32 → FVec Ideal S50000x1 .f32 → FVec Ideal S128x128 .f32
      → FVec Ideal S128 .f32 → FVec Ideal S128x128 .f32 → FVec Ideal S50000x128 .f32)
    (L2 : FVec Ideal S50000x128 .f32 → FVec Ideal S50000x128 .f32 → FVec Ideal S50000x1 .f32 → FVec Ideal S128x128 .f32
      → FVec Ideal S128 .f32 → FVec Ideal S128x128 .f32 → FVec Ideal S128 .f32 → FVec Ideal S128 .f32 → FVec Ideal S50000x128 .f32)
    (h0 : ∀ (V : (c : Dev nD) → (b : Ref sig .tc) → Buf (Elt Ideal) ((c : Thread nD τ).loc b)) (c : Dev nD),
      (Gen.dat0 V c).arrAt 6 cfg0.N = L1 (V c main_v22) (V c main_arg0) (V c main_v12) (V c main_v23) (V c main_arg3) (V c main_v24))
    (h1 : ∀ (V : (c : Dev nD) → (b : Ref sig .tc) → Buf (Elt Ideal) ((c : Thread nD τ).loc b)) (c : Dev nD),
      (Gen.dat1 V c).arrAt 8 cfg1.N = L2 (V c main_v35) (V c main_v25) (V c main_v12) (V c main_v36) (V c main_arg6) (V c main_v37) (V c main_arg8) (V c main_arg9))
    (m : (ℓ : Loc nD τ sig) → Buf (Elt Ideal) ℓ) (ρ : Dev nD → PrngReg) (c : Dev nD) :
    Gen.W4 m ρ c (Proc.devRef .tc main_v38)
      = kernelTerm L1 L2 (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) :=
  (Gen.W4_arr m ρ c 8).trans ((h1 (Gen.V3 m ρ) c).trans
    (term_eq L1 L2 (Gen.W0 m ρ c) (Gen.W2 m ρ c)
      ((Gen.W2_arr m ρ c 6).trans (h0 (Gen.V1 m ρ) c))
      (Gen.W2_of_ne m ρ c main_v1 (by decide)) (Gen.W2_of_ne m ρ c main_v3 (by decide))
      ((Gen.W2_arr m ρ c 2).trans (((Gen.dat0 (Gen.V1 m ρ) c).arrAt_in 2 rfl _).trans (Gen.A_eq0 (Gen.V1 m ρ) c 2)))
      (Gen.W2_of_ne m ρ c main_arg5 (by decide)) (Gen.W2_of_ne m ρ c main_arg6 (by decide)) (Gen.W2_of_ne m ρ c main_arg7 (by decide)) (Gen.W2_of_ne m ρ c main_arg8 (by decide)) (Gen.W2_of_ne m ρ c main_arg9 (by decide))))

end Cert.KernelIdeal.Glue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.LibSageNorm.lean ====
/-
  A mean-aggregating graph-convolution layer followed by a row-wise layer normalisation, on the extended reals,
  entry by entry.

  For a node p with neighbour sum A(p,·), own features h(p,·), and a factor ci(p) kept as a one-column matrix,
  the layer's entry (p,q) is
      max( ( sum_k (A(p,k) · ci(p)) · wl(k,q) + bl(q) ) + sum_k h(p,k) · wr(k,q) , 0 ).
  The reference form divides by a count c(p), kept as a vector, instead of multiplying by a factor:
      max( ( sum_k (A(p,k) / c(p)) · wl(k,q) + bl(q) ) + sum_k h(p,k) · wr(k,q) , 0 ).
  When every c(p) is a nonzero real and ci(p) = 1 / c(p), the two are one function: dividing an extended real by a
  nonzero real IS multiplying by the real's reciprocal. Nothing is asked of A, h or the weights.

  The layer normalisation of a matrix Y: with mu(p) = (sum_q Y(p,q)) / n and
  var(p) = (sum_q (Y(p,q) − mu(p))²) / n, entry (p,q) is
      ((Y(p,q) − mu(p)) · (var(p) + eps)^(−1/2)) · w(q) + b(q).
  Both depend on row p of their operands only, so computed on a block of rows they give those rows of the whole.
  The vector unit's spelling of the layer (a column broadcast over the row, two matrix products into zero, a one-row
  bias broadcast, a maximum with a zero splat) is the first function, and its spelling of the normalisation (lane sums
  kept as columns, a division by a splat of n, the columns broadcast back over the row) is the last.
-/
import proofs.«139870_j89103391523116_2_alg».proof.Proof.LibDense
import proofs.«139870_j89103391523116_2_alg».proof.Proof.LibColumnLayout
import proofs.«139870_j89103391523116_2_alg».proof.Proof.LibLaneEntry

noncomputable section

open scoped BigOperators

namespace Cert.SageNorm

open Cert.Dense Idealize.ShloMosaic Idealize.ShloMosaic.ValueIdx

variable {M M' K N : ℕ}

/-! ## The layer -/

/-- Every row multiplied by its entry of a one-column matrix. -/
def scaleRows (A : Mat M K) (ci : Mat M 1) : Mat M K := fun i => A i * ci (ix2 (i 0) (0 : Fin 1))

/-- Every row divided by its entry of a vector. -/
def divRows (A : Mat M K) (c : Row M) : Mat M K := fun i => Ideal.div (A i) (c (ix1 (i 0)))

/-- The layer with the neighbour sums multiplied by a column of factors. -/
def layer (A h : Mat M K) (ci : Mat M 1) (wl : Mat K N) (bl : Row N) (wr : Mat K N) : Mat M N := fun i =>
  max ((mm (scaleRows A ci) wl i + bl (ix1 (i 1))) + mm h wr i) 0

/-- The layer with the neighbour sums divided by a vector of counts. -/
def layerRef (A h : Mat M K) (c : Row M) (wl : Mat K N) (bl : Row N) (wr : Mat K N) : Mat M N := fun i =>
  max ((mm (divRows A c) wl i + bl (ix1 (i 1))) + mm h wr i) 0

theorem scaleRows_apply (A : Mat M K) (ci : Mat M 1) (p : Fin M) (k : Fin K) :
    scaleRows A ci (ix2 p k) = A (ix2 p k) * ci (ix2 p (0 : Fin 1)) := rfl

theorem divRows_apply (A : Mat M K) (c : Row M) (p : Fin M) (k : Fin K) :
    divRows A c (ix2 p k) = Ideal.div (A (ix2 p k)) (c (ix1 p)) := rfl

theorem layer_apply (A h : Mat M K) (ci : Mat M 1) (wl : Mat K N) (bl : Row N) (wr : Mat K N) (p : Fin M) (q : Fin N) :
    layer A h ci wl bl wr (ix2 p q) = max ((mm (scaleRows A ci) wl (ix2 p q) + bl (ix1 q)) + mm h wr (ix2 p q)) 0 := rfl

theorem layerRef_apply (A h : Mat M K) (c : Row M) (wl : Mat K N) (bl : Row N) (wr : Mat K N) (p : Fin M) (q : Fin N) :
    layerRef A h c wl bl wr (ix2 p q) = max ((mm (divRows A c) wl (ix2 p q) + bl (ix1 q)) + mm h wr (ix2 p q)) 0 := rfl

/-- Multiplying a row by the reciprocal of a nonzero real count is dividing the row by the count. -/
theorem scaleRows_eq_divRows (A : Mat M K) (ci : Mat M 1) (c : Row M)
    (hc : ∀ p : Fin M, ∃ r : ℝ, r ≠ 0 ∧ c (ix1 p) = (r : EReal))
    (hci : ∀ p : Fin M, ci (ix2 p (0 : Fin 1)) = Ideal.div 1 (c (ix1 p))) : scaleRows A ci = divRows A c := by
  funext i
  obtain ⟨p, k, rfl⟩ : ∃ (p : Fin M) (k : Fin K), i = ix2 p k := ⟨i 0, i 1, eq_ix2 i⟩
  rw [scaleRows_apply, divRows_apply, hci p]
  obtain ⟨r, hr, hcr⟩ := hc p
  rw [hcr, Ideal.div_coe hr, Ideal.div_coe hr, one_mul]

/-- So the two forms of the layer are one function. -/
theorem layer_eq_layerRef (A h : Mat M K) (ci : Mat M 1) (c : Row M) (wl : Mat K N) (bl : Row N) (wr : Mat K N)
    (hc : ∀ p : Fin M, ∃ r : ℝ, r ≠ 0 ∧ c (ix1 p) = (r : EReal))
    (hci : ∀ p : Fin M, ci (ix2 p (0 : Fin 1)) = Ideal.div 1 (c (ix1 p))) :
    layer A h ci wl bl wr = layerRef A h c wl bl wr := by
  unfold layer layerRef
  rw [scaleRows_eq_divRows A ci c hc hci]

/-- Rows of the layer: on a block whose rows are rows ρ of the whole arrays, it gives those rows of the whole result. -/
theorem layer_rows (A h : Mat M' K) (ci : Mat M' 1) (wl : Mat K N) (bl : Row N) (wr : Mat K N)
    (a b : Mat M K) (d : Mat M 1) (ρ : Fin M → Fin M')
    (ha : ∀ p k, a (ix2 p k) = A (ix2 (ρ p) k)) (hb : ∀ p k, b (ix2 p k) = h (ix2 (ρ p) k))
    (hd : ∀ p, d (ix2 p (0 : Fin 1)) = ci (ix2 (ρ p) (0 : Fin 1))) (p : Fin M) (q : Fin N) :
    layer a b d wl bl wr (ix2 p q) = layer A h ci wl bl wr (ix2 (ρ p) q) := by
  rw [layer_apply, layer_apply,
    mm_rows (scaleRows A ci) (scaleRows a d) wl ρ (fun p k => by rw [scaleRows_apply, scaleRows_apply, ha, hd]) p q,
    mm_rows h b wr ρ hb p q]

/-! ## The layer normalisation -/

/-- The mean of row p: the row's sum divided by n. -/
def rowMean (n : EReal) (Y : Mat M N) (p : Fin M) : EReal := Ideal.div (∑ q : Fin N, Y (ix2 p q)) n

/-- The variance of row p: the sum of the squared distances from the mean, divided by n. -/
def rowVar (n : EReal) (Y : Mat M N) (p : Fin M) : EReal :=
  Ideal.div (∑ q : Fin N, (Y (ix2 p q) - rowMean n Y p) * (Y (ix2 p q) - rowMean n Y p)) n

/-- The normalised matrix with a scale and a shift per column. -/
def lnorm (n eps : EReal) (w b : Row N) (Y : Mat M N) : Mat M N := fun i =>
  ((Y i - rowMean n Y (i 0)) * Ideal.rsqrt (rowVar n Y (i 0) + eps)) * w (ix1 (i 1)) + b (ix1 (i 1))

theorem lnorm_apply (n eps : EReal) (w b : Row N) (Y : Mat M N) (p : Fin M) (q : Fin N) :
    lnorm n eps w b Y (ix2 p q)
      = ((Y (ix2 p q) - rowMean n Y p) * Ideal.rsqrt (rowVar n Y p + eps)) * w (ix1 q) + b (ix1 q) := rfl

theorem rowMean_rows (n : EReal) (Y : Mat M' N) (y : Mat M N) (ρ : Fin M → Fin M')
    (hy : ∀ p q, y (ix2 p q) = Y (ix2 (ρ p) q)) (p : Fin M) : rowMean n y p = rowMean n Y (ρ p) := by
  unfold rowMean
  simp only [hy]

theorem rowVar_rows (n : EReal) (Y : Mat M' N) (y : Mat M N) (ρ : Fin M → Fin M')
    (hy : ∀ p q, y (ix2 p q) = Y (ix2 (ρ p) q)) (p : Fin M) : rowVar n y p = rowVar n Y (ρ p) := by
  unfold rowVar
  rw [rowMean_rows n Y y ρ hy p]
  simp only [hy]

/-- Rows of the normalised matrix. -/
theorem lnorm_rows (n eps : EReal) (w b : Row N) (Y : Mat M' N) (y : Mat M N) (ρ : Fin M → Fin M')
    (hy : ∀ p q, y (ix2 p q) = Y (ix2 (ρ p) q)) (p : Fin M) (q : Fin N) :
    lnorm n eps w b y (ix2 p q) = lnorm n eps w b Y (ix2 (ρ p) q) := by
  rw [lnorm_apply, lnorm_apply, rowMean_rows n Y y ρ hy p, rowVar_rows n Y y ρ hy p, hy]

/-! ## The layer as the vector unit computes it -/

/-- A matrix times a one-column matrix broadcast over the row is the matrix with every row scaled. -/
theorem mulf_broadcastTo_column (A : FVec Ideal ⟨2, ![M, K]⟩ .f32) (ci : FVec Ideal ⟨2, ![M, 1]⟩ .f32)
    (hb : (⟨2, ![M, 1]⟩ : Shape).Broadcasts ⟨2, ![M, K]⟩) :
    mulf A (broadcastTo ⟨2, ![M, K]⟩ ci hb) = scaleRows A ci := by
  funext i
  obtain ⟨p, k, rfl⟩ : ∃ (p : Fin M) (k : Fin K), i = ix2 p k := ⟨i 0, i 1, eq_ix2 i⟩
  show A (ix2 p k) * broadcastTo ⟨2, ![M, K]⟩ ci hb (ix2 p k) = _
  rw [Cert.ColumnLayout.broadcastTo_a1_ab_apply]
  rfl

/-- The vector unit's layer: the neighbour sums times the broadcast column, a product into zero, the bias as one row
    broadcast over the rows, the second product into zero, the maximum with a zero splat. -/
theorem kernel_layer (prec : Option ContractPrecision) (A h : FVec Ideal ⟨2, ![M, K]⟩ .f32) (ci : FVec Ideal ⟨2, ![M, 1]⟩ .f32)
    (wl wr : FVec Ideal ⟨2, ![K, N]⟩ .f32) (bl : FVec Ideal ⟨1, ![N]⟩ .f32)
    (hb1 : (⟨2, ![M, 1]⟩ : Shape).Broadcasts ⟨2, ![M, K]⟩) (hc : (⟨1, ![N]⟩ : Shape).ShapeCasts ⟨2, ![1, N]⟩)
    (hb2 : (⟨2, ![1, N]⟩ : Shape).Broadcasts ⟨2, ![M, N]⟩) :
    maximumf
        (addf
          (addf (matmul (DotDims.plain M K N) prec (mulf A (broadcastTo ⟨2, ![M, K]⟩ ci hb1)) wl
              (constant (F := Ideal) ⟨2, ![M, N]⟩ .f32 0x00000000#32))
            (broadcastTo ⟨2, ![M, N]⟩ (shapeCast ⟨2, ![1, N]⟩ bl hc) hb2))
          (matmul (DotDims.plain M K N) prec h wr (constant (F := Ideal) ⟨2, ![M, N]⟩ .f32 0x00000000#32)))
        (broadcast ⟨2, ![M, N]⟩ (Scalar.ofBits (F := Ideal) .f32 0x00000000#32))
      = layer A h ci wl bl wr := by
  rw [addf_matmul_broadcastTo, matmul_plain_zero, maximumf_splat_zero, mulf_broadcastTo_column]
  funext i
  obtain ⟨p, q, rfl⟩ : ∃ (p : Fin M) (q : Fin N), i = ix2 p q := ⟨i 0, i 1, eq_ix2 i⟩
  show max ((mm (scaleRows A ci) wl (ix2 p q) + shapeCast ⟨2, ![1, N]⟩ bl hc (ix2 (0 : Fin 1) q)) + mm h wr (ix2 p q)) 0 = _
  rw [shapeCast_a_1a_apply, layer_apply]

/-! ## The layer normalisation as the vector unit computes it -/

/-- The column of row means: the lane sums kept as a column, divided by a splat of the word of n. -/
def muCol (nw : BitVec 32) (Y : FVec Ideal ⟨2, ![M, N]⟩ .f32) (hr : (⟨2, ![M, N]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ Y 0x00000000#32 hr hφ hacc) hsc)
    (broadcast ⟨2, ![M, 1]⟩ (Scalar.ofBits (F := Ideal) .f32 nw))

theorem muCol_apply (nw : BitVec 32) (Y : FVec Ideal ⟨2, ![M, N]⟩ .f32) (hr : (⟨2, ![M, N]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (p : Fin M) :
    muCol nw Y hr hφ hacc hsc (ix2 p (0 : Fin 1)) = rowMean (Ideal.ofBits .f32 nw) Y p := by
  show Ideal.div (shapeCast ⟨2, ![M, 1]⟩ (multiReduction .add [1] ⟨1, ![M]⟩ Y 0x00000000#32 hr hφ hacc) hsc (ix2 p (0 : Fin 1)))
      (Ideal.ofBits .f32 nw) = _
  rw [Cert.ColumnLayout.shapeCast_a_a1_apply, Cert.LaneEntry.laneSum]
  rfl

/-- The matrix of distances from the row mean. -/
theorem subf_muCol_apply (nw : BitVec 32) (Y : FVec Ideal ⟨2, ![M, N]⟩ .f32) (hr : (⟨2, ![M, N]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hb : (⟨2, ![M, 1]⟩ : Shape).Broadcasts ⟨2, ![M, N]⟩) (p : Fin M) (q : Fin N) :
    subf Y (broadcastTo ⟨2, ![M, N]⟩ (muCol nw Y hr hφ hacc hsc) hb) (ix2 p q)
      = Y (ix2 p q) - rowMean (Ideal.ofBits .f32 nw) Y p := by
  show Y (ix2 p q) - broadcastTo ⟨2, ![M, N]⟩ (muCol nw Y hr hφ hacc hsc) hb (ix2 p q) = _
  rw [Cert.ColumnLayout.broadcastTo_a1_ab_apply, muCol_apply]

/-- The column of row variances: the lane sums of the squared distances kept as a column, divided by the splat. -/
theorem varCol_apply (nw : BitVec 32) (Y : FVec Ideal ⟨2, ![M, N]⟩ .f32) (hr : (⟨2, ![M, N]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hb : (⟨2, ![M, 1]⟩ : Shape).Broadcasts ⟨2, ![M, N]⟩) (p : Fin M) :
    muCol nw (mulf (subf Y (broadcastTo ⟨2, ![M, N]⟩ (muCol nw Y hr hφ hacc hsc) hb))
        (subf Y (broadcastTo ⟨2, ![M, N]⟩ (muCol nw Y hr hφ hacc hsc) hb))) hr hφ hacc hsc (ix2 p (0 : Fin 1))
      = rowVar (Ideal.ofBits .f32 nw) Y p := by
  rw [muCol_apply]
  unfold rowMean rowVar
  refine congrArg (Ideal.div · _) (Finset.sum_congr rfl fun q _ => ?_)
  show subf Y (broadcastTo ⟨2, ![M, N]⟩ (muCol nw Y hr hφ hacc hsc) hb) (ix2 p q)
      * subf Y (broadcastTo ⟨2, ![M, N]⟩ (muCol nw Y hr hφ hacc hsc) hb) (ix2 p q) = _
  rw [subf_muCol_apply]

/-- The vector unit's normalisation: the distances from the mean times the broadcast column of
    (variance + eps)^(−1/2), times the scale row, plus the shift row. -/
theorem kernel_lnorm (nw ew : BitVec 32) (Y : FVec Ideal ⟨2, ![M, N]⟩ .f32) (w b : FVec Ideal ⟨1, ![N]⟩ .f32)
    (hr : (⟨2, ![M, N]⟩ : Shape).Reduces [1] ⟨1, ![M]⟩)
    (hφ : FKind.Formats .f32) (hacc : (0x00000000#32 : BitVec 32) = FKind.add.neutral .f32 hφ)
    (hsc : (⟨1, ![M]⟩ : Shape).ShapeCasts ⟨2, ![M, 1]⟩) (hb : (⟨2, ![M, 1]⟩ : Shape).Broadcasts ⟨2, ![M, N]⟩)
    (hc : (⟨1, ![N]⟩ : Shape).ShapeCasts ⟨2, ![1, N]⟩) (hb2 : (⟨2, ![1, N]⟩ : Shape).Broadcasts ⟨2, ![M, N]⟩) :
    addf
        (mulf
          (mulf (subf Y (broadcastTo ⟨2, ![M, N]⟩ (muCol nw Y hr hφ hacc hsc) hb))
            (broadcastTo ⟨2, ![M, N]⟩
              (rsqrt (addf
                (muCol nw (mulf (subf Y (broadcastTo ⟨2, ![M, N]⟩ (muCol nw Y hr hφ hacc hsc) hb))
                  (subf Y (broadcastTo ⟨2, ![M, N]⟩ (muCol nw Y hr hφ hacc hsc) hb))) hr hφ hacc hsc)
                (broadcast ⟨2, ![M, 1]⟩ (Scalar.ofBits (F := Ideal) .f32 ew)))) hb))
          (broadcastTo ⟨2, ![M, N]⟩ (shapeCast ⟨2, ![1, N]⟩ w hc) hb2))
        (broadcastTo ⟨2, ![M, N]⟩ (shapeCast ⟨2, ![1, N]⟩ b hc) hb2)
      = lnorm (Ideal.ofBits .f32 nw) (Ideal.ofBits .f32 ew) w b Y := by
  funext i
  obtain ⟨p, q, rfl⟩ : ∃ (p : Fin M) (q : Fin N), i = ix2 p q := ⟨i 0, i 1, eq_ix2 i⟩
  show (subf Y (broadcastTo ⟨2, ![M, N]⟩ (muCol nw Y hr hφ hacc hsc) hb) (ix2 p q)
        * broadcastTo ⟨2, ![M, N]⟩
            (rsqrt (addf
              (muCol nw (mulf (subf Y (broadcastTo ⟨2, ![M, N]⟩ (muCol nw Y hr hφ hacc hsc) hb))
                (subf Y (broadcastTo ⟨2, ![M, N]⟩ (muCol nw Y hr hφ hacc hsc) hb))) hr hφ hacc hsc)
              (broadcast ⟨2, ![M, 1]⟩ (Scalar.ofBits (F := Ideal) .f32 ew)))) hb (ix2 p q))
      * broadcastTo ⟨2, ![M, N]⟩ (shapeCast ⟨2, ![1, N]⟩ w hc) hb2 (ix2 p q)
      + broadcastTo ⟨2, ![M, N]⟩ (shapeCast ⟨2, ![1, N]⟩ b hc) hb2 (ix2 p q) = _
  rw [subf_muCol_apply, Cert.ColumnLayout.broadcastTo_a1_ab_apply, broadcastTo_1b_ab_apply, broadcastTo_1b_ab_apply,
    shapeCast_a_1a_apply, shapeCast_a_1a_apply, lnorm_apply]
  show (_ * Ideal.rsqrt (muCol nw (mulf (subf Y (broadcastTo ⟨2, ![M, N]⟩ (muCol nw Y hr hφ hacc hsc) hb))
      (subf Y (broadcastTo ⟨2, ![M, N]⟩ (muCol nw Y hr hφ hacc hsc) hb))) hr hφ hacc hsc (ix2 p (0 : Fin 1))
      + Ideal.ofBits .f32 ew)) * _ + _ = _
  rw [varCol_apply]

end Cert.SageNorm

end
-- ==== Proof.KBody.lean ====
/-
  What each kernel body computes from the blocks it loads, as one function on the extended reals.

  The first kernel's stored value is the graph-convolution layer of its blocks: the neighbour sums times the broadcast
  column of reciprocal counts, a product with the left weights, the bias row, the product of the node's own features
  with the right weights, and the rectifier. The second kernel's stored value is the row-wise layer normalisation of
  that same layer, with the scale and shift rows. Identity casts disappear, and the printed contraction record is the
  plain rows-by-columns one.
-/
import proofs.«139870_j89103391523116_2_alg».proof.Proof.Gen.KernelIdeal.Skeleton
import proofs.«139870_j89103391523116_2_alg».proof.Proof.LibSageNorm

noncomputable section

namespace Cert.KernelIdeal.Body

open Cert.KernelIdeal Cert.KernelIdeal.Gen Cert.SageNorm Cert.Dense Idealize.ShloMosaic Idealize.ShloMosaic.ValueIdx

/-- The printed contraction record: rows of the left operand against columns of the right. -/
theorem dot_plain : dot_S10000x128_S128x128_S10000x128_1_0_0_1_n_n = DotDims.plain 10000 128 128 := rfl

/-- The word of 128, the row length the sums are divided by. -/
abbrev nW : EReal := Ideal.ofBits .f32 0x43000000#32
/-- The word of the constant added to the variance. -/
abbrev epsW : EReal := Ideal.ofBits .f32 0x3727C5AC#32

/-- The first kernel stores the layer of its blocks. -/
theorem pay0_eq (v0 : Vec Ideal S10000x128 .f32) (v2 : Vec Ideal S10000x1 .f32) (v6 : Vec Ideal S10000x128 .f32)
    (v7 : Vec Ideal S128x128 .f32) (v10 : Vec Ideal S128 .f32) (v14 : Vec Ideal S128x128 .f32) :
    k0_pay1 (F := Ideal) v0 v2 v6 v7 v10 v14 = layer v0 v6 v2 v7 v10 v14 := by
  unfold k0_pay1
  simp only [shapeCast_self]
  rw [dot_plain]
  exact kernel_layer (some .fp32) v0 v6 v2 v7 v14 v10 _ _ _

/-- The second kernel stores the normalised layer of its blocks. -/
theorem pay1_eq (v0 : Vec Ideal S10000x128 .f32) (v2 : Vec Ideal S10000x1 .f32) (v6 : Vec Ideal S10000x128 .f32)
    (v8 : Vec Ideal S128x128 .f32) (v11 : Vec Ideal S128 .f32) (v15 : Vec Ideal S128x128 .f32)
    (v39 v43 : Vec Ideal S128 .f32) :
    k1_pay1 (F := Ideal) (k1_pay2 (F := Ideal) v0 v2 v6 v8 v11 v15) v39 v43
      = lnorm nW epsW v39 v43 (layer v0 v6 v2 v8 v11 v15) := by
  unfold k1_pay1 k1_pay2
  simp only [shapeCast_self]
  rw [dot_plain]
  rw [kernel_layer (some .fp32) v0 v6 v2 v8 v15 v11 _ _ _]
  exact kernel_lnorm 0x43000000#32 0x3727C5AC#32 (layer v0 v6 v2 v8 v11 v15) v39 v43 _ _ _ _ _ _ _

end Cert.KernelIdeal.Body

end
-- ==== Proof.KRegion.lean ====
/-
  What each pipelined region leaves in its output array, as one function of the arrays it reads.

  The grid has five points; point t handles rows 10000·t … 10000·t + 9999 of the row-blocked arrays (the neighbour
  sums, the node features, the column of reciprocal counts, the output) and the whole of the small ones (the weight
  matrices and the bias, scale and shift rows). The layer and the layer normalisation depend on row p of their
  row-blocked operands only, so what point t writes back is block t of the function applied to the whole arrays; the
  five blocks cover the output array, so the array ends holding that function. Stated at an arbitrary valuation V of
  the buffers at the region's entry.
-/
import proofs.«139870_j89103391523116_2_alg».proof.Proof.Gen.KernelIdeal.Frame
import proofs.«139870_j89103391523116_2_alg».proof.Proof.KBody
import Idealize.ShloMosaic.Lib.Pipeline.Value

set_option maxRecDepth 16384

noncomputable section

namespace Cert.KernelIdeal.Region

open Cert.KernelIdeal Cert.KernelIdeal.Gen Cert.KernelIdeal.Body Cert.SageNorm Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row p of block t is row 10000·t + p of the whole array (t taken below five). -/
def rowOf (t : ℕ) (p : Fin 10000) : Fin 50000 := ⟨(t % 5) * 10000 + p.val, by have := p.isLt; omega⟩

/-! ## Region 0 -/

/-- The printed index maps over the grid: the row-blocked windows sit at block (t, 0), the small ones at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 ∧ t.val < 5 :=
  (by decide +kernel : ∀ t : Fin grid0.N, _)

/-- Every block of rows is some point's. -/
theorem idx_onto0 : ∀ q0 : Fin 5, ∃ t : Fin cfg0.N, win0_6.index t = ![q0.val, 0] :=
  (by decide +kernel : ∀ q0 : Fin 5, ∃ t : Fin grid0.N, win0_6.index t = ![q0.val, 0])

theorem read0_0 (c : Dev nD) (t : Fin cfg0.N) (p : Fin 10000) (k : Fin 128) :
    iblk0 V c 0 t (ix2 p k) = V c main_v22 (ix2 (rowOf t.val p) k) := by
  obtain ⟨e0, e1, -, -, -, -, -, -, -, -, -, -, -, hlt⟩ := idx_facts0 t
  show V c main_v22 (((cfg0.win 0).blk t).view.emb (ix2 p k)) = _
  refine congrArg (V c main_v22) (funext fun a => Fin.ext ?_)
  match a with
  | ⟨0, _⟩ => show win0_0.index t (0 : Fin 2) * 10000 + 1 * p.val = (t.val % 5) * 10000 + p.val; omega
  | ⟨1, _⟩ => show win0_0.index t (1 : Fin 2) * 128 + 1 * k.val = k.val; omega

theorem read0_1 (c : Dev nD) (t : Fin cfg0.N) (p : Fin 10000) (k : Fin 128) :
    iblk0 V c 1 t (ix2 p k) = V c main_arg0 (ix2 (rowOf t.val p) k) := by
  obtain ⟨-, -, e0, e1, -, -, -, -, -, -, -, -, -, hlt⟩ := idx_facts0 t
  show V c main_arg0 (((cfg0.win 1).blk t).view.emb (ix2 p k)) = _
  refine congrArg (V c main_arg0) (funext fun a => Fin.ext ?_)
  match a with
  | ⟨0, _⟩ => show win0_1.index t (0 : Fin 2) * 10000 + 1 * p.val = (t.val % 5) * 10000 + p.val; omega
  | ⟨1, _⟩ => show win0_1.index t (1 : Fin 2) * 128 + 1 * k.val = k.val; omega

theorem read0_2 (c : Dev nD) (t : Fin cfg0.N) (p : Fin 10000) :
    iblk0 V c 2 t (ix2 p (0 : Fin 1)) = V c main_v12 (ix2 (rowOf t.val p) (0 : Fin 1)) := by
  obtain ⟨-, -, -, -, e0, e1, -, -, -, -, -, -, -, hlt⟩ := idx_facts0 t
  show V c main_v12 (((cfg0.win 2).blk t).view.emb (ix2 p (0 : Fin 1))) = _
  refine congrArg (V c main_v12) (funext fun a => Fin.ext ?_)
  match a with
  | ⟨0, _⟩ => show win0_2.index t (0 : Fin 2) * 10000 + 1 * p.val = (t.val % 5) * 10000 + p.val; omega
  | ⟨1, _⟩ => show win0_2.index t (1 : Fin 2) * 1 + 1 * 0 = 0; omega

theorem whole0_3 (c : Dev nD) (t : Fin cfg0.N) : iblk0 V c 3 t = V c main_v23 := by
  obtain ⟨-, -, -, -, -, -, e0, e1, -⟩ := idx_facts0 t
  funext y
  show V c main_v23 (((cfg0.win 3).blk t).view.emb y) = _
  refine congrArg (V c main_v23) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole0_4 (c : Dev nD) (t : Fin cfg0.N) : iblk0 V c 4 t = V c main_arg3 := by
  obtain ⟨-, -, -, -, -, -, -, -, e0, -⟩ := idx_facts0 t
  funext y
  show V c main_arg3 (((cfg0.win 4).blk t).view.emb y) = _
  refine congrArg (V c main_arg3) (funext fun a => Fin.ext ?_)
  match a with
  | ⟨0, _⟩ => show win0_4.index t (0 : Fin 1) * 128 + 1 * (y 0).val = (y 0).val; omega

theorem whole0_5 (c : Dev nD) (t : Fin cfg0.N) : iblk0 V c 5 t = V c main_v24 := by
  obtain ⟨-, -, -, -, -, -, -, -, -, e0, e1, -⟩ := idx_facts0 t
  funext y
  show V c main_v24 (((cfg0.win 5).blk t).view.emb y) = _
  refine congrArg (V c main_v24) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem emb0_6 (t : Fin cfg0.N) (p : Fin 10000) (q : Fin 128) :
    ((cfg0.win 6).blk t).view.emb (ix2 p q) = ix2 (rowOf t.val p) q := by
  obtain ⟨-, -, -, -, -, -, -, -, -, -, -, e0, e1, hlt⟩ := idx_facts0 t
  refine funext fun a => Fin.ext ?_
  match a with
  | ⟨0, _⟩ => show win0_6.index t (0 : Fin 2) * 10000 + 1 * p.val = (t.val % 5) * 10000 + p.val; omega
  | ⟨1, _⟩ => show win0_6.index t (1 : Fin 2) * 128 + 1 * q.val = q.val; omega

/-- What region 0 leaves in its output array, as a function of the six arrays it reads. -/
abbrev L0 (A h : Mat 50000 128) (ci : Mat 50000 1) (wl : Mat 128 128) (bl : Row 128) (wr : Mat 128 128) : Mat 50000 128 :=
  layer A h ci wl bl wr

/-- What point t writes back is block t of the layer of the whole arrays. -/
theorem flushed0_eq (c : Dev nD) (t : Fin cfg0.N) :
    (dat0 V c).flushed 6 t = ((cfg0.win 6).blk t).view.read (Elt Ideal)
      (L0 (V c main_v22) (V c main_arg0) (V c main_v12) (V c main_v23) (V c main_arg3) (V c main_v24)) := by
  show (cfg0.win 6).cut (grid0.coords t) ((dat0 V c).after 6 t) = _
  rw [after0_6]
  unfold out0_6
  rw [View.canon_unit_zero hz2]
  simp only [View.ld_unit_zero (S := S10000x128) hz2, View.ld_unit_zero (S := S10000x1) hz2,
    View.ld_unit_zero (S := S128x128) hz2, View.ld_unit_zero (S := S128) hz1]
  rw [pay0_eq]
  funext j
  obtain ⟨p, q, rfl⟩ : ∃ (p : Fin 10000) (q : Fin 128), j = ix2 p q := ⟨j 0, j 1, eq_ix2 j⟩
  show layer (iblk0 V c 0 t) (iblk0 V c 1 t) (iblk0 V c 2 t) (iblk0 V c 3 t) (iblk0 V c 4 t) (iblk0 V c 5 t) (ix2 p q)
      = L0 (V c main_v22) (V c main_arg0) (V c main_v12) (V c main_v23) (V c main_arg3) (V c main_v24)
          (((cfg0.win 6).blk t).view.emb (ix2 p q))
  rw [emb0_6 t p q, whole0_3 V c t, whole0_4 V c t, whole0_5 V c t]
  exact layer_rows (V c main_v22) (V c main_arg0) (V c main_v12) (V c main_v23) (V c main_arg3) (V c main_v24)
    (iblk0 V c 0 t) (iblk0 V c 1 t) (iblk0 V c 2 t) (rowOf t.val) (read0_0 V c t) (read0_1 V c t) (read0_2 V c t) p q

theorem mem_blk0 (t : Fin cfg0.N) (i : S50000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v25).slice (win0_6.rect t)).set ↔ _
  rw [View.set_slice_whole, Rect.mem_set_unit]
  exact Iff.rfl

/-- The five blocks cover the output array: row r is in the block of point r / 10000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- Region 0's output array after the run. -/
theorem final0 (c : Dev nD) :
    (dat0 V c).arrAt 6 cfg0.N
      = L0 (V c main_v22) (V c main_arg0) (V c main_v12) (V c main_v23) (V c main_arg3) (V c main_v24) :=
  (dat0 V c).arrAt_eq_of_cover 6 _ (fun t _ => flushed0_eq V c t) (cover0)

/-! ## Region 1 -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 2) = t.val ∧ win1_8.index t (1 : Fin 2) = 0 ∧ t.val < 5 :=
  (by decide +kernel : ∀ t : Fin grid1.N, _)

theorem idx_onto1 : ∀ q0 : Fin 5, ∃ t : Fin cfg1.N, win1_8.index t = ![q0.val, 0] :=
  (by decide +kernel : ∀ q0 : Fin 5, ∃ t : Fin grid1.N, win1_8.index t = ![q0.val, 0])

theorem read1_0 (c : Dev nD) (t : Fin cfg1.N) (p : Fin 10000) (k : Fin 128) :
    iblk1 V c 0 t (ix2 p k) = V c main_v35 (ix2 (rowOf t.val p) k) := by
  obtain ⟨e0, e1, -, -, -, -, -, -, -, -, -, -, -, -, -, hlt⟩ := idx_facts1 t
  show V c main_v35 (((cfg1.win 0).blk t).view.emb (ix2 p k)) = _
  refine congrArg (V c main_v35) (funext fun a => Fin.ext ?_)
  match a with
  | ⟨0, _⟩ => show win1_0.index t (0 : Fin 2) * 10000 + 1 * p.val = (t.val % 5) * 10000 + p.val; omega
  | ⟨1, _⟩ => show win1_0.index t (1 : Fin 2) * 128 + 1 * k.val = k.val; omega

theorem read1_1 (c : Dev nD) (t : Fin cfg1.N) (p : Fin 10000) (k : Fin 128) :
    iblk1 V c 1 t (ix2 p k) = V c main_v25 (ix2 (rowOf t.val p) k) := by
  obtain ⟨-, -, e0, e1, -, -, -, -, -, -, -, -, -, -, -, hlt⟩ := idx_facts1 t
  show V c main_v25 (((cfg1.win 1).blk t).view.emb (ix2 p k)) = _
  refine congrArg (V c main_v25) (funext fun a => Fin.ext ?_)
  match a with
  | ⟨0, _⟩ => show win1_1.index t (0 : Fin 2) * 10000 + 1 * p.val = (t.val % 5) * 10000 + p.val; omega
  | ⟨1, _⟩ => show win1_1.index t (1 : Fin 2) * 128 + 1 * k.val = k.val; omega

theorem read1_2 (c : Dev nD) (t : Fin cfg1.N) (p : Fin 10000) :
    iblk1 V c 2 t (ix2 p (0 : Fin 1)) = V c main_v12 (ix2 (rowOf t.val p) (0 : Fin 1)) := by
  obtain ⟨-, -, -, -, e0, e1, -, -, -, -, -, -, -, -, -, hlt⟩ := idx_facts1 t
  show V c main_v12 (((cfg1.win 2).blk t).view.emb (ix2 p (0 : Fin 1))) = _
  refine congrArg (V c main_v12) (funext fun a => Fin.ext ?_)
  match a with
  | ⟨0, _⟩ => show win1_2.index t (0 : Fin 2) * 10000 + 1 * p.val = (t.val % 5) * 10000 + p.val; omega
  | ⟨1, _⟩ => show win1_2.index t (1 : Fin 2) * 1 + 1 * 0 = 0; omega

theorem whole1_3 (c : Dev nD) (t : Fin cfg1.N) : iblk1 V c 3 t = V c main_v36 := by
  obtain ⟨-, -, -, -, -, -, e0, e1, -⟩ := idx_facts1 t
  funext y
  show V c main_v36 (((cfg1.win 3).blk t).view.emb y) = _
  refine congrArg (V c main_v36) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem whole1_4 (c : Dev nD) (t : Fin cfg1.N) : iblk1 V c 4 t = V c main_arg6 := by
  obtain ⟨-, -, -, -, -, -, -, -, e0, -⟩ := idx_facts1 t
  funext y
  show V c main_arg6 (((cfg1.win 4).blk t).view.emb y) = _
  refine congrArg (V c main_arg6) (funext fun a => Fin.ext ?_)
  match a with
  | ⟨0, _⟩ => show win1_4.index t (0 : Fin 1) * 128 + 1 * (y 0).val = (y 0).val; omega

theorem whole1_5 (c : Dev nD) (t : Fin cfg1.N) : iblk1 V c 5 t = V c main_v37 := by
  obtain ⟨-, -, -, -, -, -, -, -, -, e0, e1, -⟩ := idx_facts1 t
  funext y
  show V c main_v37 (((cfg1.win 5).blk t).view.emb y) = _
  refine congrArg (V c main_v37) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem whole1_6 (c : Dev nD) (t : Fin cfg1.N) : iblk1 V c 6 t = V c main_arg8 := by
  obtain ⟨-, -, -, -, -, -, -, -, -, -, -, e0, -⟩ := idx_facts1 t
  funext y
  show V c main_arg8 (((cfg1.win 6).blk t).view.emb y) = _
  refine congrArg (V c main_arg8) (funext fun a => Fin.ext ?_)
  match a with
  | ⟨0, _⟩ => show win1_6.index t (0 : Fin 1) * 128 + 1 * (y 0).val = (y 0).val; omega

theorem whole1_7 (c : Dev nD) (t : Fin cfg1.N) : iblk1 V c 7 t = V c main_arg9 := by
  obtain ⟨-, -, -, -, -, -, -, -, -, -, -, -, e0, -⟩ := idx_facts1 t
  funext y
  show V c main_arg9 (((cfg1.win 7).blk t).view.emb y) = _
  refine congrArg (V c main_arg9) (funext fun a => Fin.ext ?_)
  match a with
  | ⟨0, _⟩ => show win1_7.index t (0 : Fin 1) * 128 + 1 * (y 0).val = (y 0).val; omega

theorem emb1_8 (t : Fin cfg1.N) (p : Fin 10000) (q : Fin 128) :
    ((cfg1.win 8).blk t).view.emb (ix2 p q) = ix2 (rowOf t.val p) q := by
  obtain ⟨-, -, -, -, -, -, -, -, -, -, -, -, -, e0, e1, hlt⟩ := idx_facts1 t
  refine funext fun a => Fin.ext ?_
  match a with
  | ⟨0, _⟩ => show win1_8.index t (0 : Fin 2) * 10000 + 1 * p.val = (t.val % 5) * 10000 + p.val; omega
  | ⟨1, _⟩ => show win1_8.index t (1 : Fin 2) * 128 + 1 * q.val = q.val; omega

/-- What region 1 leaves in its output array, as a function of the eight arrays it reads. -/
abbrev L1 (A h : Mat 50000 128) (ci : Mat 50000 1) (wl : Mat 128 128) (bl : Row 128) (wr : Mat 128 128)
    (lw lb : Row 128) : Mat 50000 128 :=
  lnorm nW epsW lw lb (layer A h ci wl bl wr)

/-- What point t writes back is block t of the normalised layer of the whole arrays. -/
theorem flushed1_eq (c : Dev nD) (t : Fin cfg1.N) :
    (dat1 V c).flushed 8 t = ((cfg1.win 8).blk t).view.read (Elt Ideal)
      (L1 (V c main_v35) (V c main_v25) (V c main_v12) (V c main_v36) (V c main_arg6) (V c main_v37)
        (V c main_arg8) (V c main_arg9)) := by
  show (cfg1.win 8).cut (grid1.coords t) ((dat1 V c).after 8 t) = _
  rw [after1_8]
  unfold out1_8
  rw [View.canon_unit_zero hz2]
  simp only [View.ld_unit_zero (S := S10000x128) hz2, View.ld_unit_zero (S := S10000x1) hz2,
    View.ld_unit_zero (S := S128x128) hz2, View.ld_unit_zero (S := S128) hz1]
  rw [pay1_eq]
  funext j
  obtain ⟨p, q, rfl⟩ : ∃ (p : Fin 10000) (q : Fin 128), j = ix2 p q := ⟨j 0, j 1, eq_ix2 j⟩
  show lnorm nW epsW (iblk1 V c 6 t) (iblk1 V c 7 t)
        (layer (iblk1 V c 0 t) (iblk1 V c 1 t) (iblk1 V c 2 t) (iblk1 V c 3 t) (iblk1 V c 4 t) (iblk1 V c 5 t)) (ix2 p q)
      = L1 (V c main_v35) (V c main_v25) (V c main_v12) (V c main_v36) (V c main_arg6) (V c main_v37)
          (V c main_arg8) (V c main_arg9) (((cfg1.win 8).blk t).view.emb (ix2 p q))
  rw [emb1_8 t p q, whole1_3 V c t, whole1_4 V c t, whole1_5 V c t, whole1_6 V c t, whole1_7 V c t]
  exact lnorm_rows nW epsW (V c main_arg8) (V c main_arg9)
    (layer (V c main_v35) (V c main_v25) (V c main_v12) (V c main_v36) (V c main_arg6) (V c main_v37))
    (layer (iblk1 V c 0 t) (iblk1 V c 1 t) (iblk1 V c 2 t) (V c main_v36) (V c main_arg6) (V c main_v37)) (rowOf t.val)
    (layer_rows (V c main_v35) (V c main_v25) (V c main_v12) (V c main_v36) (V c main_arg6) (V c main_v37)
      (iblk1 V c 0 t) (iblk1 V c 1 t) (iblk1 V c 2 t) (rowOf t.val) (read1_0 V c t) (read1_1 V c t) (read1_2 V c t)) p q

theorem mem_blk1 (t : Fin cfg1.N) (i : S50000x128.Idx) :
    i ∈ ((cfg1.win 8).blk t).view.set ↔ ∀ a : Fin 2, win1_8.index t a * S10000x128.size a ≤ (i a).val
      ∧ (i a).val < win1_8.index t a * S10000x128.size a + S10000x128.size a := by
  show i ∈ ((View.whole main_v38).slice (win1_8.rect t)).set ↔ _
  rw [View.set_slice_whole, Rect.mem_set_unit]
  exact Iff.rfl

theorem cover1 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := idx_onto1 ⟨(i 0).val / 10000, by omega⟩
  have q0 : win1_8.index t (0 : Fin 2) = (i 0).val / 10000 := congrFun ht 0
  have q1 : win1_8.index t (1 : Fin 2) = 0 := congrFun ht 1
  refine ⟨t, flush1_8 t, ?_⟩
  rw [mem_blk1]
  intro a
  match a with
  | ⟨0, _⟩ => show win1_8.index t (0 : Fin 2) * 10000 ≤ (i 0).val ∧ (i 0).val < win1_8.index t (0 : Fin 2) * 10000 + 10000; omega
  | ⟨1, _⟩ => show win1_8.index t (1 : Fin 2) * 128 ≤ (i 1).val ∧ (i 1).val < win1_8.index t (1 : Fin 2) * 128 + 128; omega

/-- Region 1's output array after the run. -/
theorem final1 (c : Dev nD) :
    (dat1 V c).arrAt 8 cfg1.N
      = L1 (V c main_v35) (V c main_v25) (V c main_v12) (V c main_v36) (V c main_arg6) (V c main_v37)
          (V c main_arg8) (V c main_arg9) :=
  (dat1 V c).arrAt_eq_of_cover 8 _ (fun t _ => flushed1_eq V c t) (cover1)

end Cert.KernelIdeal.Region

end
-- ==== Proof.KFinal.lean ====
/-
  The kernel program's run with its result as one term of the arguments.

  The run ends with the result buffer at the last boundary's contents; read back through the two stretches of host
  operations and the two regions, those contents are the second region's function (the normalised layer) of the
  segment sum of the first region's function (the layer), with the inverse in-degree column and the transposed
  weights computed on the host from the arguments.
-/
import proofs.«139870_j89103391523116_2_alg».proof.Proof.KRun
import proofs.«139870_j89103391523116_2_alg».proof.Proof.KValue
import proofs.«139870_j89103391523116_2_alg».proof.Proof.KRegion

noncomputable section

namespace Cert.KernelIdeal.Glue

open Cert.KernelIdeal Idealize.ShloMosaic Idealize.ShloMosaic.TcCoe Idealize.SL.Sem

/-- Every weakly fair execution of the kernel program terminates with the result buffer at the composed term of the
    arguments and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
        = kernelTerm Region.L0 Region.L1 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono
    (fun r h c => ⟨(h c).1.trans (W4_v38 Region.L0 Region.L1 Region.final0 Region.final1 m ρ c), (h c).2⟩)
    (run_named m ρ)

end Cert.KernelIdeal.Glue

end
-- ==== Proof.RefHost.lean ====
/-
  The reference program's result as one formula over the contents of its ten arguments.

  The program is two mean-aggregating graph-convolution layers and a row-wise layer normalisation. With
  e the 2 x 800000 edge list (row 0 the sources, row 1 the destinations), the neighbour sum of a feature
  matrix h is the scatter-add into zeros, along the destination column, of the rows of h gathered along
  the source column (a negative source wrapped by the row count); the count of a node is the scatter-add
  of ones along the destination column, and at least one. A layer divides every neighbour sum by its
  node's count, multiplies by a transposed weight matrix, adds a bias row and the node's own features
  times a second transposed weight matrix, and rectifies. The result normalises every row of the second
  layer's output with the literal 128 as the row length and the literal 9.99999974e-6 under the root.

  The index columns, the neighbour sum, the count and the transposition are written with exactly the
  operations and shape records of the printed program; the layers and the normalisation are the
  entry-by-entry functions on the extended reals.
-/
import proofs.«139870_j89103391523116_2_alg».proof.Proof.Gen.ReferenceIdeal.Read
import proofs.«139870_j89103391523116_2_alg».proof.Proof.LibSageNorm

noncomputable section

namespace Cert.ReferenceIdeal.Glue

open Cert.ReferenceIdeal Cert.ReferenceIdeal.Gen Idealize.ShloMosaic Idealize.ShloMosaic.TcCoe Idealize.SL.Sem Idealize.ShloMosaic.StableHlo

/-- The destination column: row 1 of the edge list, flattened and kept as an 800000 x 1 column. -/
def dstCol (e : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] e slices_S2x800000_S1x800000_1_0) shapeCasts_S1x800000_S800000)

/-- The source column: row 0 of the edge list, flattened, every negative entry raised by 50000, kept as an
    800000 x 1 column. -/
def srcCol (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt
        (shapeCast _ (extractStridedSlice S1x800000 ![0, 0] e slices_S2x800000_S1x800000_0_0) shapeCasts_S1x800000_S800000)
        (broadcastInDim S800000 ![] bcast_S_S800000 (constantI S_ 32 0#32)))
      (addi
        (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- The neighbour sums of a feature matrix: the rows gathered along the source column, added into zeros along the
    destination column. -/
def segsum (h : (⟨S50000x128, .f32⟩ : BufTy).Contents (Elt Ideal)) (e : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (dstCol e)
    (Host.gather gather_S50000x128_S800000x1_S800000x128_1_0_n_n_0_1_1128 h (srcCol e))

/-- The count of every node: ones added into zeros along the destination column, and at least one. -/
def cnt (e : (⟨S2x800000, .i32⟩ : BufTy).Contents (Elt Ideal)) : FVec Ideal S50000 .f32 :=
  maximumf
    (Host.scatterAdd (F := Ideal) scatter_S50000_S800000x1_S800000_n_0_0_1
      (broadcastInDim S50000 ![] bcast_S_S50000 (constant (F := Ideal) S_ .f32 0x00000000#32))
      (dstCol e)
      (broadcastInDim S800000 ![] bcast_S_S800000 (constant (F := Ideal) S_ .f32 0x3F800000#32)))
    (broadcastInDim S50000 ![] bcast_S_S50000 (constant (F := Ideal) S_ .f32 0x3F800000#32))

/-- A 128 x 128 weight matrix transposed. -/
def tr (w : (⟨S128x128, .f32⟩ : BufTy).Contents (Elt Ideal)) : (⟨S128x128, .f32⟩ : BufTy).Contents (Elt Ideal) :=
  transpose S128x128 [1, 0] w transposes_S128x128_S128x128_1_0

/-- The row length the normalisation divides by: the literal 128. -/
def nWord : EReal := Ideal.ofBits .f32 0x43000000#32

/-- The constant the normalisation adds under the root: the literal 9.99999974e-6. -/
def epsWord : EReal := Ideal.ofBits .f32 0x3727C5AC#32

/-- The reference's result: the first layer on the features, the second layer on the first layer's output, the
    normalisation of the second layer's output. -/
def refTerm (x : (⟨S50000x128, .f32⟩ : BufTy).Contents (Elt Ideal)) (e : (⟨S2x800000, .i32⟩ : BufTy).Contents (Elt Ideal))
    (w1l : (⟨S128x128, .f32⟩ : BufTy).Contents (Elt Ideal)) (b1l : (⟨S128, .f32⟩ : BufTy).Contents (Elt Ideal))
    (w1r w2l : (⟨S128x128, .f32⟩ : BufTy).Contents (Elt Ideal)) (b2l : (⟨S128, .f32⟩ : BufTy).Contents (Elt Ideal))
    (w2r : (⟨S128x128, .f32⟩ : BufTy).Contents (Elt Ideal)) (lnw lnb : (⟨S128, .f32⟩ : BufTy).Contents (Elt Ideal)) :
    FVec Ideal S50000x128 .f32 :=
  let h1 : (⟨S50000x128, .f32⟩ : BufTy).Contents (Elt Ideal) :=
    Cert.SageNorm.layerRef (segsum x e) x (cnt e) (tr w1l) b1l (tr w1r)
  Cert.SageNorm.lnorm nWord epsWord lnw lnb (Cert.SageNorm.layerRef (segsum h1 e) h1 (cnt e) (tr w2l) b2l (tr w2r))

end Cert.ReferenceIdeal.Glue

end
-- ==== Proof.RefValue.lean ====
/-
  The reference program computes the formula.

  Read one operation at a time, the reference program's result at an entry (p, q) is built from sums over the
  128 columns, the row division by a node's count, a bias row, a maximum with zero (twice: the two layers), and
  then the row mean, the row variance, the reciprocal root and the scale and shift of the normalisation. Each
  stage is read at the entry from the stages before it; the index every layout operation reads at is computed at
  the entry; and what remains is, entry by entry, the layer and the normalisation of the specification. The
  gathers and scatters are never opened: they are the neighbour sums and the counts of the formula, term for term.
-/
import proofs.«139870_j89103391523116_2_alg».proof.Proof.RefHost

noncomputable section

open scoped BigOperators

namespace Cert.ReferenceIdeal.Glue

open Cert.ReferenceIdeal Cert.ReferenceIdeal.Gen Idealize.ShloMosaic Idealize.ShloMosaic.TcCoe Idealize.SL.Sem Idealize.ShloMosaic.StableHlo
open Idealize.ShloMosaic.ValueIdx Cert.Dense Cert.SageNorm

/-! ## The two specification functions at an entry -/

/-- The layer at an entry, with the products and the row division written out. -/
theorem layerRef_entry {M K N : ℕ} (A h : Mat M K) (c : Row M) (wl : Mat K N) (bl : Row N) (wr : Mat K N) (p : Fin M) (q : Fin N) :
    layerRef A h c wl bl wr (ix2 p q)
      = max (((∑ k : Fin K, Ideal.div (A (ix2 p k)) (c (ix1 p)) * wl (ix2 k q)) + bl (ix1 q))
          + ∑ k : Fin K, h (ix2 p k) * wr (ix2 k q)) 0 := rfl

/-! ## The program's index functions at an entry

Every layout operation of the program reads its operand at an index computed from the result's index; at the entry
(p, q), or at the column entry (p, 0), or at the row entry (0, q), these are the indices below. -/

theorem lidx_v24 (p : Fin 50000) (q : Fin 128) : Read.lidx_main_v24 (ix2 p q) = fun k : Fin 128 => (ix2 p k : S50000x128.Idx) :=
  funext fun k => funext fun a => Fin.ext (by match a with | ⟨0, _⟩ => rfl | ⟨1, _⟩ => rfl)
theorem ridx_v24 (p : Fin 50000) (q : Fin 128) : Read.ridx_main_v24 (ix2 p q) = fun k : Fin 128 => (ix2 k q : S128x128.Idx) :=
  funext fun k => funext fun a => Fin.ext (by match a with | ⟨0, _⟩ => rfl | ⟨1, _⟩ => rfl)
theorem lidx_v29 (p : Fin 50000) (q : Fin 128) : Read.lidx_main_v29 (ix2 p q) = fun k : Fin 128 => (ix2 p k : S50000x128.Idx) :=
  funext fun k => funext fun a => Fin.ext (by match a with | ⟨0, _⟩ => rfl | ⟨1, _⟩ => rfl)
theorem ridx_v29 (p : Fin 50000) (q : Fin 128) : Read.ridx_main_v29 (ix2 p q) = fun k : Fin 128 => (ix2 k q : S128x128.Idx) :=
  funext fun k => funext fun a => Fin.ext (by match a with | ⟨0, _⟩ => rfl | ⟨1, _⟩ => rfl)
theorem lidx_v56 (p : Fin 50000) (q : Fin 128) : Read.lidx_main_v56 (ix2 p q) = fun k : Fin 128 => (ix2 p k : S50000x128.Idx) :=
  funext fun k => funext fun a => Fin.ext (by match a with | ⟨0, _⟩ => rfl | ⟨1, _⟩ => rfl)
theorem ridx_v56 (p : Fin 50000) (q : Fin 128) : Read.ridx_main_v56 (ix2 p q) = fun k : Fin 128 => (ix2 k q : S128x128.Idx) :=
  funext fun k => funext fun a => Fin.ext (by match a with | ⟨0, _⟩ => rfl | ⟨1, _⟩ => rfl)
theorem lidx_v61 (p : Fin 50000) (q : Fin 128) : Read.lidx_main_v61 (ix2 p q) = fun k : Fin 128 => (ix2 p k : S50000x128.Idx) :=
  funext fun k => funext fun a => Fin.ext (by match a with | ⟨0, _⟩ => rfl | ⟨1, _⟩ => rfl)
theorem ridx_v61 (p : Fin 50000) (q : Fin 128) : Read.ridx_main_v61 (ix2 p q) = fun k : Fin 128 => (ix2 k q : S128x128.Idx) :=
  funext fun k => funext fun a => Fin.ext (by match a with | ⟨0, _⟩ => rfl | ⟨1, _⟩ => rfl)
theorem idx_v21 (p : Fin 50000) (q : Fin 128) : Read.idx_main_v21 (ix2 p q) = (ix2 p (0 : Fin 1) : S50000x1.Idx) :=
  funext fun a => Fin.ext (by match a with | ⟨0, _⟩ => rfl | ⟨1, _⟩ => rfl)
theorem idx_v53 (p : Fin 50000) (q : Fin 128) : Read.idx_main_v53 (ix2 p q) = (ix2 p (0 : Fin 1) : S50000x1.Idx) :=
  funext fun a => Fin.ext (by match a with | ⟨0, _⟩ => rfl | ⟨1, _⟩ => rfl)
theorem idx_v68 (p : Fin 50000) (q : Fin 128) : Read.idx_main_v68 (ix2 p q) = (ix2 p (0 : Fin 1) : S50000x1.Idx) :=
  funext fun a => Fin.ext (by match a with | ⟨0, _⟩ => rfl | ⟨1, _⟩ => rfl)
theorem idx_v75 (p : Fin 50000) (q : Fin 128) : Read.idx_main_v75 (ix2 p q) = (ix2 p (0 : Fin 1) : S50000x1.Idx) :=
  funext fun a => Fin.ext (by match a with | ⟨0, _⟩ => rfl | ⟨1, _⟩ => rfl)
theorem idx_v80 (p : Fin 50000) (q : Fin 128) : Read.idx_main_v80 (ix2 p q) = (ix2 p (0 : Fin 1) : S50000x1.Idx) :=
  funext fun a => Fin.ext (by match a with | ⟨0, _⟩ => rfl | ⟨1, _⟩ => rfl)
theorem idx_v20 (p : Fin 50000) (u : Fin 1) : Read.idx_main_v20 (ix2 p u) = (ix1 p : S50000.Idx) :=
  funext fun a => Fin.ext (by match a with | ⟨0, _⟩ => rfl)
theorem idx_v52 (p : Fin 50000) (u : Fin 1) : Read.idx_main_v52 (ix2 p u) = (ix1 p : S50000.Idx) :=
  funext fun a => Fin.ext (by match a with | ⟨0, _⟩ => rfl)
theorem idx_v65 (p : Fin 50000) (u : Fin 1) : Read.idx_main_v65 (ix2 p u) = (ix1 p : S50000.Idx) :=
  funext fun a => Fin.ext (by match a with | ⟨0, _⟩ => rfl)
theorem idx_v72 (p : Fin 50000) (u : Fin 1) : Read.idx_main_v72 (ix2 p u) = (ix1 p : S50000.Idx) :=
  funext fun a => Fin.ext (by match a with | ⟨0, _⟩ => rfl)
theorem idx_v26 (p : Fin 50000) (q : Fin 128) : Read.idx_main_v26 (ix2 p q) = (ix2 (0 : Fin 1) q : S1x128.Idx) :=
  funext fun a => Fin.ext (by match a with | ⟨0, _⟩ => rfl | ⟨1, _⟩ => rfl)
theorem idx_v58 (p : Fin 50000) (q : Fin 128) : Read.idx_main_v58 (ix2 p q) = (ix2 (0 : Fin 1) q : S1x128.Idx) :=
  funext fun a => Fin.ext (by match a with | ⟨0, _⟩ => rfl | ⟨1, _⟩ => rfl)
theorem idx_v83 (p : Fin 50000) (q : Fin 128) : Read.idx_main_v83 (ix2 p q) = (ix2 (0 : Fin 1) q : S1x128.Idx) :=
  funext fun a => Fin.ext (by match a with | ⟨0, _⟩ => rfl | ⟨1, _⟩ => rfl)
theorem idx_v86 (p : Fin 50000) (q : Fin 128) : Read.idx_main_v86 (ix2 p q) = (ix2 (0 : Fin 1) q : S1x128.Idx) :=
  funext fun a => Fin.ext (by match a with | ⟨0, _⟩ => rfl | ⟨1, _⟩ => rfl)
theorem idx_v25 (u : Fin 1) (q : Fin 128) : Read.idx_main_v25 (ix2 u q) = (ix1 q : S128.Idx) :=
  funext fun a => Fin.ext (by match a with | ⟨0, _⟩ => rfl)
theorem idx_v57 (u : Fin 1) (q : Fin 128) : Read.idx_main_v57 (ix2 u q) = (ix1 q : S128.Idx) :=
  funext fun a => Fin.ext (by match a with | ⟨0, _⟩ => rfl)
theorem idx_v82 (u : Fin 1) (q : Fin 128) : Read.idx_main_v82 (ix2 u q) = (ix1 q : S128.Idx) :=
  funext fun a => Fin.ext (by match a with | ⟨0, _⟩ => rfl)
theorem idx_v85 (u : Fin 1) (q : Fin 128) : Read.idx_main_v85 (ix2 u q) = (ix1 q : S128.Idx) :=
  funext fun a => Fin.ext (by match a with | ⟨0, _⟩ => rfl)
theorem idx_v64 (p : Fin 50000) : Read.idx_main_v64 (ix1 p) = fun k : Fin 128 => (ix2 p k : S50000x128.Idx) :=
  funext fun k => funext fun a => Fin.ext (by match a with | ⟨0, _⟩ => rfl | ⟨1, _⟩ => rfl)
theorem idx_v71 (p : Fin 50000) : Read.idx_main_v71 (ix1 p) = fun k : Fin 128 => (ix2 p k : S50000x128.Idx) :=
  funext fun k => funext fun a => Fin.ext (by match a with | ⟨0, _⟩ => rfl | ⟨1, _⟩ => rfl)

/-! ## The opaque stages are the formula's operands -/

section
variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 x9 : (⟨S128, .f32⟩ : BufTy).Contents (Elt Ideal))

/-- The first layer's neighbour sums. -/
theorem v13_eq : Read.val_main_v13 (F := Ideal) x0 x1 = segsum x0 x1 := rfl
/-- The first layer's counts. -/
theorem v19_eq : Read.val_main_v19 (F := Ideal) x1 = cnt x1 := rfl
/-- The four transposed weight matrices. -/
theorem v23_eq : Read.val_main_v23 (F := Ideal) x2 = tr x2 := rfl
theorem v28_eq : Read.val_main_v28 (F := Ideal) x4 = tr x4 := rfl
theorem v55_eq : Read.val_main_v55 (F := Ideal) x5 = tr x5 := rfl
theorem v60_eq : Read.val_main_v60 (F := Ideal) x7 = tr x7 := rfl
/-- The second layer's neighbour sums: the same gather and scatter, of the first layer's output. -/
theorem v45_eq : Read.val_main_v45 (F := Ideal) x0 x1 x2 x3 x4 = segsum (Read.val_main_v31 (F := Ideal) x0 x1 x2 x3 x4) x1 := rfl
/-- The second layer's counts: the same as the first's. -/
theorem v51_eq : Read.val_main_v51 (F := Ideal) x1 = cnt x1 := rfl

/-! ## The first layer -/

/-- The divided neighbour sums of the first layer at an entry. -/
theorem v22_at (p : Fin 50000) (k : Fin 128) :
    Read.val_main_v22 (F := Ideal) x0 x1 (ix2 p k) = Ideal.div (segsum x0 x1 (ix2 p k)) (cnt x1 (ix1 p)) := by
  rw [Read.val_main_v22_apply, Read.val_main_v21_apply, Read.val_main_v20_apply, idx_v21, idx_v20, v13_eq, v19_eq,
    Ideal.hostDivf_def]

/-- The first layer is the layer of the features. -/
theorem layer1 : Read.val_main_v31 (F := Ideal) x0 x1 x2 x3 x4 = layerRef (segsum x0 x1) x0 (cnt x1) (tr x2) x3 (tr x4) := by
  funext i
  obtain ⟨p, q, rfl⟩ : ∃ (p : Fin 50000) (q : Fin 128), i = ix2 p q := ⟨i 0, i 1, eq_ix2 i⟩
  rw [layerRef_entry, Read.val_main_v31_apply, Read.val_main_call0_v0_apply, Read.val_main_call0_cst_apply,
    Read.val_main_v30_apply, Read.val_main_v27_apply, Read.val_main_v24_apply, Read.val_main_v29_apply,
    Read.val_main_v26_apply, Read.val_main_v25_apply, idx_v26, idx_v25, lidx_v24, ridx_v24, lidx_v29, ridx_v29,
    v23_eq, v28_eq, Ideal.ofBits_def, Ideal.ofBits_zero_f32]
  simp only [v22_at, Ideal.addf_def, Ideal.maximumf_def]

/-! ## The second layer -/

/-- The divided neighbour sums of the second layer at an entry. -/
theorem v54_at (p : Fin 50000) (k : Fin 128) :
    Read.val_main_v54 (F := Ideal) x0 x1 x2 x3 x4 (ix2 p k)
      = Ideal.div (segsum (Read.val_main_v31 (F := Ideal) x0 x1 x2 x3 x4) x1 (ix2 p k)) (cnt x1 (ix1 p)) := by
  rw [Read.val_main_v54_apply, Read.val_main_v53_apply, Read.val_main_v52_apply, idx_v53, idx_v52, v45_eq, v51_eq,
    Ideal.hostDivf_def]

/-- The second layer is the layer of the first layer's output. -/
theorem layer2 : Read.val_main_v63 (F := Ideal) x0 x1 x2 x3 x4 x5 x6 x7
    = layerRef (segsum (Read.val_main_v31 (F := Ideal) x0 x1 x2 x3 x4) x1) (Read.val_main_v31 (F := Ideal) x0 x1 x2 x3 x4) (cnt x1) (tr x5) x6 (tr x7) := by
  funext i
  obtain ⟨p, q, rfl⟩ : ∃ (p : Fin 50000) (q : Fin 128), i = ix2 p q := ⟨i 0, i 1, eq_ix2 i⟩
  rw [layerRef_entry, Read.val_main_v63_apply, Read.val_main_call1_v0_apply, Read.val_main_call1_cst_apply,
    Read.val_main_v62_apply, Read.val_main_v59_apply, Read.val_main_v56_apply, Read.val_main_v61_apply,
    Read.val_main_v58_apply, Read.val_main_v57_apply, idx_v58, idx_v57, lidx_v56, ridx_v56, lidx_v61, ridx_v61,
    v55_eq, v60_eq, Ideal.ofBits_def, Ideal.ofBits_zero_f32]
  simp only [v54_at, Ideal.addf_def, Ideal.maximumf_def]

/-! ## The normalisation -/

/-- The column of row means at its entry. -/
theorem v67_at (p : Fin 50000) (u : Fin 1) :
    Read.val_main_v67 (F := Ideal) x0 x1 x2 x3 x4 x5 x6 x7 (ix2 p u) = rowMean nWord (Read.val_main_v63 (F := Ideal) x0 x1 x2 x3 x4 x5 x6 x7) p := by
  rw [Read.val_main_v67_apply, Read.val_main_v66_apply, Read.val_main_cst_11_apply, Read.val_main_v65_apply,
    Read.val_main_v64_apply, Read.val_main_cst_10_apply, idx_v65, idx_v64, Ideal.ofBits_def, Ideal.ofBits_def,
    Ideal.ofBits_zero_f32, zero_add, Ideal.hostDivf_def]
  generalize (Read.val_main_v63 (F := Ideal) x0 x1 x2 x3 x4 x5 x6 x7) = Y
  rfl

/-- The distance from the row mean at an entry (the program computes it twice, as two buffers). -/
theorem v69_at (p : Fin 50000) (q : Fin 128) :
    Read.val_main_v69 (F := Ideal) x0 x1 x2 x3 x4 x5 x6 x7 (ix2 p q)
      = (Read.val_main_v63 (F := Ideal) x0 x1 x2 x3 x4 x5 x6 x7) (ix2 p q) - rowMean nWord (Read.val_main_v63 (F := Ideal) x0 x1 x2 x3 x4 x5 x6 x7) p := by
  rw [Read.val_main_v69_apply, Read.val_main_v68_apply, idx_v68, v67_at, Ideal.subf_def]

theorem v76_at (p : Fin 50000) (q : Fin 128) :
    Read.val_main_v76 (F := Ideal) x0 x1 x2 x3 x4 x5 x6 x7 (ix2 p q)
      = (Read.val_main_v63 (F := Ideal) x0 x1 x2 x3 x4 x5 x6 x7) (ix2 p q) - rowMean nWord (Read.val_main_v63 (F := Ideal) x0 x1 x2 x3 x4 x5 x6 x7) p := by
  rw [Read.val_main_v76_apply, Read.val_main_v75_apply, idx_v75, v67_at, Ideal.subf_def]

/-- The squared distance from the row mean at an entry. -/
theorem v70_at (p : Fin 50000) (q : Fin 128) :
    Read.val_main_v70 (F := Ideal) x0 x1 x2 x3 x4 x5 x6 x7 (ix2 p q)
      = ((Read.val_main_v63 (F := Ideal) x0 x1 x2 x3 x4 x5 x6 x7) (ix2 p q) - rowMean nWord (Read.val_main_v63 (F := Ideal) x0 x1 x2 x3 x4 x5 x6 x7) p) * ((Read.val_main_v63 (F := Ideal) x0 x1 x2 x3 x4 x5 x6 x7) (ix2 p q) - rowMean nWord (Read.val_main_v63 (F := Ideal) x0 x1 x2 x3 x4 x5 x6 x7) p) := by
  rw [Read.val_main_v70_apply, v69_at, Ideal.mulf_def]

/-- The column of row variances at its entry. -/
theorem v74_at (p : Fin 50000) (u : Fin 1) :
    Read.val_main_v74 (F := Ideal) x0 x1 x2 x3 x4 x5 x6 x7 (ix2 p u) = rowVar nWord (Read.val_main_v63 (F := Ideal) x0 x1 x2 x3 x4 x5 x6 x7) p := by
  rw [Read.val_main_v74_apply, Read.val_main_v73_apply, Read.val_main_cst_13_apply, Read.val_main_v72_apply,
    Read.val_main_v71_apply, Read.val_main_cst_12_apply, idx_v72, idx_v71, Ideal.ofBits_def, Ideal.ofBits_def,
    Ideal.ofBits_zero_f32, zero_add, Ideal.hostDivf_def]
  simp only [v70_at]
  generalize (Read.val_main_v63 (F := Ideal) x0 x1 x2 x3 x4 x5 x6 x7) = Y
  rfl

/-- The result is the normalisation of the second layer's output. -/
theorem norm_eq : Read.val_main_v87 (F := Ideal) x0 x1 x2 x3 x4 x5 x6 x7 x8 x9
    = lnorm nWord epsWord x8 x9 (Read.val_main_v63 (F := Ideal) x0 x1 x2 x3 x4 x5 x6 x7) := by
  funext i
  obtain ⟨p, q, rfl⟩ : ∃ (p : Fin 50000) (q : Fin 128), i = ix2 p q := ⟨i 0, i 1, eq_ix2 i⟩
  rw [lnorm_apply, Read.val_main_v87_apply, Read.val_main_v86_apply, Read.val_main_v85_apply, idx_v86, idx_v85,
    Read.val_main_v84_apply, Read.val_main_v83_apply, Read.val_main_v82_apply, idx_v83, idx_v82,
    Read.val_main_v81_apply, v76_at, Read.val_main_v80_apply, idx_v80, Read.val_main_v79_apply,
    Read.val_main_v78_apply, v74_at, Read.val_main_v77_apply, Read.val_main_cst_14_apply, Ideal.ofBits_def,
    Ideal.hostUnary_rsqrt_def, Ideal.addf_def, Ideal.addf_def, Ideal.mulf_def, Ideal.mulf_def]
  generalize (Read.val_main_v63 (F := Ideal) x0 x1 x2 x3 x4 x5 x6 x7) = Y
  rfl

/-! ## The whole program -/

/-- The reference program's result is the formula. -/
theorem ref_value : Cert.ReferenceIdeal.Read.val_main_v87 (F := Ideal) x0 x1 x2 x3 x4 x5 x6 x7 x8 x9
    = refTerm x0 x1 x2 x3 x4 x5 x6 x7 x8 x9 := by
  rw [norm_eq, layer2, layer1, refTerm]

end

end Cert.ReferenceIdeal.Glue

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibCount.lean ====
/-
  The clipped neighbour count is a nonzero real.

  Scattering the constant one into a zero column by an index column adds, at row p, one for every update row whose
  index names p: the count of such rows, a natural number. Its maximum with one is therefore a real number not
  below one, in particular not zero — which is what dividing by it, or multiplying by its reciprocal, needs.
-/
import proofs.«139870_j89103391523116_2_alg».proof.Proof.LibIndexed

noncomputable section

open scoped BigOperators

namespace Cert.Count

open Idealize.ShloMosaic Idealize.ShloMosaic.ValueIdx Cert.Indexed

/-- A finite sum of ones on the extended reals is the number of terms, a real. -/
theorem sum_one_real {ι : Type*} (s : Finset ι) : ∑ _r ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The count column clipped below at one: a real not below one at every row. -/
theorem clipped_count_real {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (hx : ∀ i, x i = 0) (hu : ∀ j, upd j = 1) (p : Fin N) :
    ∃ r : ℝ, r ≠ 0 ∧ max (Ideal.hostScatterAdd (rowScatter N 1 M wf) x idx upd (ix2 p (0 : Fin 1))) 1 = (r : EReal) := by
  rw [rowScatterAdd_apply, hx, zero_add]
  simp only [hu]
  rw [sum_one_real]
  refine ⟨max ((Finset.univ.filter fun r : Fin M => Names (idx (ix2 r (0 : Fin 1))) p).card : ℝ) 1, ?_, ?_⟩
  · exact ne_of_gt (lt_of_lt_of_le one_pos (le_max_right _ _))
  · exact (EReal.coe_strictMono.monotone.map_max (a := ((Finset.univ.filter fun r : Fin M => Names (idx (ix2 r (0 : Fin 1))) p).card : ℝ)) (b := 1)).symm

end Cert.Count

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.KCount.lean ====
import proofs.«139870_j89103391523116_2_alg».proof.Proof.KHost
import proofs.«139870_j89103391523116_2_alg».proof.Proof.LibCount
import proofs.«139870_j89103391523116_2_alg».proof.Proof.LibLiterals
import Idealize.ShloMosaic.Lib.Pipeline.Value

/-! # The clipped in-degree and its reciprocal, entry by entry

The inverse in-degree column is the reciprocal of a count: ones scattered into a zero array by the destinations'
column add up, at node `p`, to the number of edges whose destination names `p`; the program takes the larger of that
number and one and divides one by it. Here the count is named (`cntOf`), the column is read at an entry as one over
the count at that node, and the count at a node is shown to be a nonzero real. The scatter is never evaluated: its
value at a node is the cardinality of a set of edges, kept as a set, and every operation is read at an entry by an
equation stated over variables. -/

noncomputable section

namespace Cert.KernelIdeal.Glue

open Idealize.ShloMosaic Idealize.ShloMosaic.ValueIdx
open scoped BigOperators
open Cert.KernelIdeal.Facts₀
open Cert.Indexed (Names flatScatter flatScatterAdd_at)

/-! ## The operations at an entry, over variables -/

/-- The elementwise maximum at an entry. -/
theorem maximumf_at {s : Shape} (x y : FVec Ideal s .f32) (i : s.Idx) :
    maximumf (F := Ideal) x y i = max (x i) (y i) := rfl

/-- The host's elementwise quotient at an entry. -/
theorem hostDivf_at {s : Shape} (x y : FVec Ideal s .f32) (i : s.Idx) :
    Host.divf (F := Ideal) x y i = Ideal.div (x i) (y i) := rfl

/-- The host's accumulating scatter on the extended reals is the exact accumulation. -/
theorem hostScatterAdd_eq {s si u : Shape} {w : Nat} (dd : ScatterDims s si u) (x : FVec Ideal s .f32) (idx : IVec si w)
    (upd : FVec Ideal u .f32) : Host.scatterAdd (F := Ideal) dd x idx upd = Ideal.hostScatterAdd dd x idx upd := rfl

/-- The larger of a natural number and one, on the extended reals, is a real number and not zero. -/
theorem clipped_real (n : ℕ) : ∃ r : ℝ, r ≠ 0 ∧ max (((n : ℝ)) : EReal) 1 = (r : EReal) :=
  ⟨max (n : ℝ) 1, ne_of_gt (lt_of_lt_of_le one_pos (le_max_right _ _)),
    (EReal.coe_strictMono.monotone.map_max (a := (n : ℝ)) (b := 1)).symm⟩

/-- A finite sum of terms that are each one, on the extended reals, is the number of terms, a real. -/
theorem sum_ones {ι : Type} (s : Finset ι) (f : ι → EReal) (hf : ∀ r, f r = 1) :
    ∑ r ∈ s, f r = ((s.card : ℝ) : EReal) := by
  rw [Finset.sum_congr rfl (fun r _ => hf r), Cert.Count.sum_one_real]

/-! ## The constant arrays at an entry -/

/-- The zero array of `[50000]` is `0` at every entry. -/
theorem zeros50000_apply (i : S50000.Idx) :
    (broadcastInDim S50000 ![] bcast_S_S50000 (constant (F := Ideal) S_ .f32 0x00000000#32) : FVec Ideal S50000 .f32) i = (0 : EReal) := by
  rw [broadcastInDim_apply ![] bcast_S_S50000 _ i ix0 (fun ax => ax.elim0)]
  exact Cert.LibLiterals.constant_f32_zero _ _

/-- The array of ones of `[50000]` is `1` at every entry. -/
theorem ones50000_apply (i : S50000.Idx) :
    (broadcastInDim S50000 ![] bcast_S_S50000 (constant (F := Ideal) S_ .f32 0x3F800000#32) : FVec Ideal S50000 .f32) i = (1 : EReal) := by
  rw [broadcastInDim_apply ![] bcast_S_S50000 _ i ix0 (fun ax => ax.elim0)]
  exact Cert.LibLiterals.constant_f32_one _ _

/-- The array of ones of `[800000]` is `1` at every entry. -/
theorem ones800000_apply (i : S800000.Idx) :
    (broadcastInDim S800000 ![] bcast_S_S800000 (constant (F := Ideal) S_ .f32 0x3F800000#32) : FVec Ideal S800000 .f32) i = (1 : EReal) := by
  rw [broadcastInDim_apply ![] bcast_S_S800000 _ i ix0 (fun ax => ax.elim0)]
  exact Cert.LibLiterals.constant_f32_one _ _

/-- A `[50000]` array as a `[50000, 1]` column, at entry `(p, 0)`: the array at `p`. -/
theorem column50000_apply {α : Type} (x : S50000.Idx → α) (p : Fin 50000) :
    broadcastInDim S50000x1 ![0] bcast_S50000_S50000x1_0 x (ix2 p (0 : Fin 1)) = x (ix1 p) :=
  broadcastInDim_apply ![0] bcast_S50000_S50000x1_0 x (ix2 p (0 : Fin 1)) (ix1 p) (fun ax => by
    match ax with
    | ⟨0, _⟩ =>
      show p.val = if (50000 : ℕ) = 1 then 0 else p.val
      rw [if_neg (by decide)])

/-- The program's record of the count's scatter is the flat accumulation's. -/
theorem scatter_count_eq :
    scatter_S50000_S800000x1_S800000_n_0_0_1 = flatScatter 50000 800000 scatter_S50000_S800000x1_S800000_n_0_0_1_wf := rfl

/-! ## The count and the column -/

/-- The clipped in-degree over a column of destinations: ones added up at the destinations into a zero array, then
    the larger of that and one. -/
def cntOf (d : IVec S800000x1 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32)) d
      (broadcastInDim S800000 ![] bcast_S_S800000 (constant (F := Ideal) S_ .f32 0x3F800000#32)))
    (broadcastInDim S50000 ![] bcast_S_S50000 (constant (F := Ideal) S_ .f32 0x3F800000#32))

/-- The inverse in-degree column is one over the clipped in-degree, as a column. -/
theorem invcntOf_eq (d : IVec S800000x1 32) :
    invcntOf d = broadcastInDim S50000x1 ![0] bcast_S50000_S50000x1_0
      (Host.divf (F := Ideal) (broadcastInDim S50000 ![] bcast_S_S50000 (constant (F := Ideal) S_ .f32 0x3F800000#32)) (cntOf d)) := rfl

/-- Entry `(p, 0)` of the inverse in-degree column is one over the clipped in-degree of node `p`. -/
theorem invcntOf_apply (d : IVec S800000x1 32) (p : Fin 50000) :
    invcntOf d (ix2 p (0 : Fin 1)) = Ideal.div 1 (cntOf d (ix1 p)) := by
  rw [invcntOf_eq, column50000_apply, hostDivf_at, ones50000_apply]

/-- The clipped in-degree of node `p`: the larger of the number of edges whose destination names `p` and one. -/
theorem cntOf_at (d : IVec S800000x1 32) (p : Fin 50000) :
    cntOf d (ix1 p)
      = max (((Finset.univ.filter fun r : Fin 800000 => Names (d (ix2 r (0 : Fin 1))) p).card : ℝ) : EReal) 1 := by
  unfold cntOf
  rw [maximumf_at, hostScatterAdd_eq, scatter_count_eq, flatScatterAdd_at, zeros50000_apply, ones50000_apply, zero_add]
  rw [sum_ones _ _ (fun r => ones800000_apply (ix1 r))]

/-- The clipped in-degree of a node is a real number, and not zero (it is at least one). -/
theorem cntOf_real (d : IVec S800000x1 32) (p : Fin 50000) : ∃ r : ℝ, r ≠ 0 ∧ cntOf d (ix1 p) = (r : EReal) := by
  rw [cntOf_at]
  exact clipped_real _

end Cert.KernelIdeal.Glue

end
-- ==== Proof.Bridge.lean ====
/-
  The two programs compute one function of the arguments.

  Both programs build the same index columns from the edge list, the same neighbour sums, the same node counts and
  the same transposed weights, with the same host operations: those pieces agree by unfolding. They differ in one
  place: the kernel program multiplies every neighbour sum by the reciprocal of its node's count, computed once on the
  host, where the reference divides by the count. The count is a number of edges and at least one — a nonzero real —
  and dividing an extended real by a nonzero real is multiplying by its reciprocal, so the two layers are one
  function, whatever the neighbour sums, the features and the weights hold. The second layer is applied to equal
  first-layer outputs, and the normalisation to equal second-layer outputs, with the same two literals.
-/
import proofs.«139870_j89103391523116_2_alg».proof.Proof.KCount
import proofs.«139870_j89103391523116_2_alg».proof.Proof.KRegion
import proofs.«139870_j89103391523116_2_alg».proof.Proof.RefHost

noncomputable section

namespace Cert.Bridge

open Idealize.ShloMosaic Idealize.ShloMosaic.ValueIdx Cert.SageNorm Cert.Dense

/-! ## The host pieces agree -/

theorem segsum_eq (h : Mat 50000 128) (e : IVec ⟨2, ![2, 800000]⟩ 32) :
    Cert.KernelIdeal.Glue.segsum h e = Cert.ReferenceIdeal.Glue.segsum h e := rfl

theorem tr_eq (w : Mat 128 128) : Cert.KernelIdeal.Glue.tr w = Cert.ReferenceIdeal.Glue.tr w := rfl

theorem cnt_eq (e : IVec ⟨2, ![2, 800000]⟩ 32) :
    Cert.KernelIdeal.Glue.cntOf (Cert.KernelIdeal.Glue.dstCol e) = Cert.ReferenceIdeal.Glue.cnt e := rfl

/-! ## One layer -/

/-- The layer with the host's reciprocal column is the layer with the division by the count. -/
theorem layer_bridge (A h : Mat 50000 128) (e : IVec ⟨2, ![2, 800000]⟩ 32) (wl : Mat 128 128) (bl : Row 128) (wr : Mat 128 128) :
    layer A h (Cert.KernelIdeal.Glue.invcnt e) wl bl wr = layerRef A h (Cert.ReferenceIdeal.Glue.cnt e) wl bl wr :=
  layer_eq_layerRef A h (Cert.KernelIdeal.Glue.invcnt e) (Cert.ReferenceIdeal.Glue.cnt e) wl bl wr
    (fun p => by rw [← cnt_eq]; exact Cert.KernelIdeal.Glue.cntOf_real (Cert.KernelIdeal.Glue.dstCol e) p)
    (fun p => by rw [← cnt_eq]; exact Cert.KernelIdeal.Glue.invcntOf_apply (Cert.KernelIdeal.Glue.dstCol e) p)

/-! ## The whole term -/

/-- The kernel program's composed term is the reference's formula. -/
theorem term_eq (x : Mat 50000 128) (e : IVec ⟨2, ![2, 800000]⟩ 32) (w1l : Mat 128 128) (b1l : Row 128) (w1r w2l : Mat 128 128)
    (b2l : Row 128) (w2r : Mat 128 128) (lnw lnb : Row 128) :
    Cert.KernelIdeal.Glue.kernelTerm Cert.KernelIdeal.Region.L0 Cert.KernelIdeal.Region.L1 x e w1l b1l w1r w2l b2l w2r lnw lnb
      = Cert.ReferenceIdeal.Glue.refTerm x e w1l b1l w1r w2l b2l w2r lnw lnb := by
  show lnorm Cert.KernelIdeal.Body.nW Cert.KernelIdeal.Body.epsW lnw lnb
      (layer
        (Cert.KernelIdeal.Glue.segsum
          (layer (Cert.KernelIdeal.Glue.segsum x e) x (Cert.KernelIdeal.Glue.invcnt e) (Cert.KernelIdeal.Glue.tr w1l) b1l
            (Cert.KernelIdeal.Glue.tr w1r)) e)
        (layer (Cert.KernelIdeal.Glue.segsum x e) x (Cert.KernelIdeal.Glue.invcnt e) (Cert.KernelIdeal.Glue.tr w1l) b1l
          (Cert.KernelIdeal.Glue.tr w1r))
        (Cert.KernelIdeal.Glue.invcnt e) (Cert.KernelIdeal.Glue.tr w2l) b2l (Cert.KernelIdeal.Glue.tr w2r))
    = lnorm Cert.ReferenceIdeal.Glue.nWord Cert.ReferenceIdeal.Glue.epsWord lnw lnb
      (layerRef
        (Cert.ReferenceIdeal.Glue.segsum
          (layerRef (Cert.ReferenceIdeal.Glue.segsum x e) x (Cert.ReferenceIdeal.Glue.cnt e) (Cert.ReferenceIdeal.Glue.tr w1l) b1l
            (Cert.ReferenceIdeal.Glue.tr w1r)) e)
        (layerRef (Cert.ReferenceIdeal.Glue.segsum x e) x (Cert.ReferenceIdeal.Glue.cnt e) (Cert.ReferenceIdeal.Glue.tr w1l) b1l
          (Cert.ReferenceIdeal.Glue.tr w1r))
        (Cert.ReferenceIdeal.Glue.cnt e) (Cert.ReferenceIdeal.Glue.tr w2l) b2l (Cert.ReferenceIdeal.Glue.tr w2r))
  rw [layer_bridge, layer_bridge, segsum_eq, segsum_eq, tr_eq, tr_eq, tr_eq, tr_eq]
  rfl

end Cert.Bridge

end
-- ==== Proof.lean ====
/-
  Two mean-aggregating graph-convolution layers with a rectifier, then a row-wise layer normalisation, over 50000
  nodes with 128 features and 800000 edges: the kernel program against the plain host reference, equal as functions of
  the arguments on the extended reals.

  Both programs form, on the host, the neighbour sums (rows gathered at the edges' sources, added up at their
  destinations) and the node counts (ones added up at the destinations, at least one). The kernel program inverts the
  counts once on the host and runs each layer as a pipelined region over five blocks of 10000 rows: the neighbour sums
  times the reciprocal column, a product with the transposed left weights, the bias row, the product of the node's own
  features with the transposed right weights, the maximum with zero; the second region also normalises every row.
  The reference divides the neighbour sums by the counts and does the same arithmetic on whole arrays.
  A layer and the normalisation depend on a row of their operands only, so the five blocks of each region assemble to
  the whole-array function; a count is a nonzero real, so multiplying by its reciprocal is dividing by it, and the
  two programs' results are one term. The precondition is not used: no operand needs to be finite.
  The three frames are the generated runs; nothing was rewritten when the kernel program was idealized, so the
  idealization claim is trivial.
-/
import proofs.«139870_j89103391523116_2_alg».proof.Defs
import proofs.«139870_j89103391523116_2_alg».proof.Proof.Gen.Kernel
import proofs.«139870_j89103391523116_2_alg».proof.Proof.Gen.Kernel.Frame
import proofs.«139870_j89103391523116_2_alg».proof.Proof.Gen.KernelIdeal
import proofs.«139870_j89103391523116_2_alg».proof.Proof.Gen.KernelIdeal.Frame
import proofs.«139870_j89103391523116_2_alg».proof.Proof.Gen.ReferenceIdeal
import proofs.«139870_j89103391523116_2_alg».proof.Proof.Gen.ReferenceIdeal.Run
import proofs.«139870_j89103391523116_2_alg».proof.Proof.Gen.ReferenceIdeal.Read
import proofs.«139870_j89103391523116_2_alg».proof.Proof.Gen.Pre_finite_inputs
import proofs.«139870_j89103391523116_2_alg».proof.Proof.KFinal
import proofs.«139870_j89103391523116_2_alg».proof.Proof.RefValue
import proofs.«139870_j89103391523116_2_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run ends at its composed term of the arguments, the reference's at its formula of arguments
    that agree: one function. -/
theorem algebraic : Cert.algebraic_KernelIdeal_ReferenceIdeal := by
  intro m ρ m' ρ' _ hagree
  refine ⟨_, Cert.KernelIdeal.Glue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v87_eq, Cert.ReferenceIdeal.Glue.ref_value, a0, a1, a2, a3, a4, a5, a6, a7, a8, a9]
  exact (Cert.Bridge.term_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
